-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩
abbrev S2304x3072 : Shape := ⟨2, ![2304, 3072]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  reducesTo_S_S_d : S_.ReducesTo [] S_

variable [Facts]

def fn {F : FTy → Type} [FloatOps F] (main_arg0 : FVec F S8192x1024 .f32) (main_arg1 : FVec F S_ .f32) (main_arg2 : IVec S2304x3072 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S8192x1024 : Shape := ⟨2, ![8192, 1024]⟩
abbrev S_ : Shape := ⟨0, ![]⟩
abbrev S2304x3072 : Shape := ⟨2, ![2304, 3072]⟩
abbrev S2048x1024 : Shape := ⟨2, ![2048, 1024]⟩
abbrev S1x1 : Shape := ⟨2, ![1, 1]⟩
abbrev S8192x2048 : Shape := ⟨2, ![8192, 2048]⟩
abbrev S256x1024 : Shape := ⟨2, ![256, 1024]⟩
abbrev S256x2048 : Shape := ⟨2, ![256, 2048]⟩
abbrev S256x3072 : Shape := ⟨2, ![256, 3072]⟩
abbrev S8192x256 : Shape := ⟨2, ![8192, 256]⟩
abbrev S256x256 : Shape := ⟨2, ![256, 256]⟩

abbrev nBuf : Space → Nat
  | .hbm => 59
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S_, .f32⟩
  | .hbm, ⟨2, _⟩ => ⟨S2304x3072, .i32⟩
  | .hbm, ⟨3, _⟩ => ⟨S2048x1024, .i32⟩
  | .hbm, ⟨4, _⟩ => ⟨S1x1, .f32⟩
  | .hbm, ⟨5, _⟩ => ⟨S_, .i32⟩
  | .hbm, ⟨6, _⟩ => ⟨S2048x1024, .i32⟩
  | .hbm, ⟨7, _⟩ => ⟨S2048x1024, .i1⟩
  | .hbm, ⟨8, _⟩ => ⟨S2048x1024, .bf16⟩
  | .hbm, ⟨9, _⟩ => ⟨S_, .i32⟩
  | .hbm, ⟨10, _⟩ => ⟨S2048x1024, .i32⟩
  | .hbm, ⟨11, _⟩ => ⟨S2048x1024, .i1⟩
  | .hbm, ⟨12, _⟩ => ⟨S2048x1024, .bf16⟩
  | .hbm, ⟨13, _⟩ => ⟨S_, .i32⟩
  | .hbm, ⟨14, _⟩ => ⟨S2048x1024, .i32⟩
  | .hbm, ⟨15, _⟩ => ⟨S2048x1024, .i1⟩
  | .hbm, ⟨16, _⟩ => ⟨S2048x1024, .bf16⟩
  | .hbm, ⟨17, _⟩ => ⟨S_, .i32⟩
  | .hbm, ⟨18, _⟩ => ⟨S2048x1024, .i32⟩
  | .hbm, ⟨19, _⟩ => ⟨S2048x1024, .i1⟩
  | .hbm, ⟨20, _⟩ => ⟨S2048x1024, .bf16⟩
  | .hbm, ⟨21, _⟩ => ⟨S8192x2048, .f32⟩
  | .hbm, ⟨22, _⟩ => ⟨S256x3072, .i32⟩
  | .hbm, ⟨23, _⟩ => ⟨S256x1024, .i32⟩
  | .hbm, ⟨24, _⟩ => ⟨S256x2048, .i32⟩
  | .hbm, ⟨25, _⟩ => ⟨S1x1, .f32⟩
  | .hbm, ⟨26, _⟩ => ⟨S_, .i32⟩
  | .hbm, ⟨27, _⟩ => ⟨S256x1024, .i32⟩
  | .hbm, ⟨28, _⟩ => ⟨S256x1024, .i1⟩
  | .hbm, ⟨29, _⟩ => ⟨S256x1024, .bf16⟩
  | .hbm, ⟨30, _⟩ => ⟨S_, .i32⟩
  | .hbm, ⟨31, _⟩ => ⟨S256x1024, .i32⟩
  | .hbm, ⟨32, _⟩ => ⟨S256x1024, .i1⟩
  | .hbm, ⟨33, _⟩ => ⟨S256x1024, .bf16⟩
  | .hbm, ⟨34, _⟩ => ⟨S_, .i32⟩
  | .hbm, ⟨35, _⟩ => ⟨S256x1024, .i32⟩
  | .hbm, ⟨36, _⟩ => ⟨S256x1024, .i1⟩
  | .hbm, ⟨37, _⟩ => ⟨S256x1024, .bf16⟩
  | .hbm, ⟨38, _⟩ => ⟨S_, .i32⟩
  | .hbm, ⟨39, _⟩ => ⟨S256x1024, .i32⟩
  | .hbm, ⟨40, _⟩ => ⟨S256x1024, .i1⟩
  | .hbm, ⟨41, _⟩ => ⟨S256x1024, .bf16⟩
  | .hbm, ⟨42, _⟩ => ⟨S_, .i32⟩
  | .hbm, ⟨43, _⟩ => ⟨S256x2048, .i32⟩
  | .hbm, ⟨44, _⟩ => ⟨S256x2048, .i1⟩
  | .hbm, ⟨45, _⟩ => ⟨S256x2048, .bf16⟩
  | .hbm, ⟨46, _⟩ => ⟨S_, .i32⟩
  | .hbm, ⟨47, _⟩ => ⟨S256x2048, .i32⟩
  | .hbm, ⟨48, _⟩ => ⟨S256x2048, .i1⟩
  | .hbm, ⟨49, _⟩ => ⟨S256x2048, .bf16⟩
  | .hbm, ⟨50, _⟩ => ⟨S_, .i32⟩
  | .hbm, ⟨51, _⟩ => ⟨S256x2048, .i32⟩
  | .hbm, ⟨52, _⟩ => ⟨S256x2048, .i1⟩
  | .hbm, ⟨53, _⟩ => ⟨S256x2048, .bf16⟩
  | .hbm, ⟨54, _⟩ => ⟨S_, .i32⟩
  | .hbm, ⟨55, _⟩ => ⟨S256x2048, .i32⟩
  | .hbm, ⟨56, _⟩ => ⟨S256x2048, .i1⟩
  | .hbm, ⟨57, _⟩ => ⟨S256x2048, .bf16⟩
  | .hbm, ⟨58, _⟩ => ⟨S8192x256, .f32⟩
  | .local _ .vmem, ⟨0, _⟩ => ⟨S256x1024, .f32⟩
  | .local _ .vmem, ⟨1, _⟩ => ⟨S256x1024, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x1, .f32⟩
  | .local _ .vmem, ⟨7, _⟩ => ⟨S256x2048, .f32⟩
  | .local _ .vmem, ⟨8, _⟩ => ⟨S256x2048, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S1x1, .f32⟩
  | .local _ .vmem, ⟨22, _⟩ => ⟨S256x256, .f32⟩
  | .local _ .vmem, ⟨23, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2304x3072_S2048x1024_0_0 : S2304x3072.Slices ![0, 0] S2048x1024
  shapeCasts_S_S1x1 : S_.ShapeCasts S1x1
  bcast_S_S2048x1024 : S_.BroadcastsInDim S2048x1024 (![] : Fin 0 → Fin S2048x1024.rank)
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S256x2048_S256x2048_0_0 : ∀ a, (![0, 0] : Fin 2 → Nat) a + S256x2048.size a ≤ S256x2048.size a
  h_S256x2048 : 0 < S256x2048.numel
  slices_S2304x3072_S256x3072_2048_0 : S2304x3072.Slices ![2048, 0] S256x3072
  slices_S256x3072_S256x1024_0_0 : S256x3072.Slices ![0, 0] S256x1024
  slices_S256x3072_S256x2048_0_1024 : S256x3072.Slices ![0, 1024] S256x2048
  bcast_S_S256x1024 : S_.BroadcastsInDim S256x1024 (![] : Fin 0 → Fin S256x1024.rank)
  bcast_S_S256x2048 : S_.BroadcastsInDim S256x2048 (![] : Fin 0 → Fin S256x2048.rank)
  shapeCasts_S256x1024_S256x1024 : S256x1024.ShapeCasts S256x1024
  shapeCasts_S256x2048_S256x2048 : S256x2048.ShapeCasts S256x2048
  inb_S256x256_S256x256_0_0 : ∀ a, (![0, 0] : Fin 2 → Nat) a + S256x256.size a ≤ S256x256.size a
  h_S256x256 : 0 < S256x256.numel
  dot_S256x1024_S2048x1024_S256x2048_1_1_0_0_n_n_wf : DotDims.WF S256x1024 S2048x1024 S256x2048 [1] [1] [0] [0] [] []
  dot_S256x1024_S256x1024_S256x256_1_1_0_0_n_n_wf : DotDims.WF S256x1024 S256x1024 S256x256 [1] [1] [0] [0] [] []
  dot_S256x2048_S256x2048_S256x256_1_1_0_0_n_n_wf : DotDims.WF S256x2048 S256x2048 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S8192x2048.size a
  hwx0_6 : ∀ i : grid0.Coords, EltTy.bits .f32 = 32 ∨ (Rect.block (s := S8192x2048) S256x2048.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .f32 = 32 ∨ (Rect.block (s := S8192x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .bf16 = 32 ∨ (Rect.block (s := S256x1024) S256x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .bf16 = 32 ∨ (Rect.block (s := S256x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x1024.size a
  hwx1_3 : ∀ i : grid1.Coords, EltTy.bits .bf16 = 32 ∨ (Rect.block (s := S256x1024) S256x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S256x1024.size a
  hwx1_4 : ∀ i : grid1.Coords, EltTy.bits .bf16 = 32 ∨ (Rect.block (s := S256x1024) S256x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2048.size a ≤ S8192x2048.size a
  hwx1_5 : ∀ i : grid1.Coords, EltTy.bits .f32 = 32 ∨ (Rect.block (s := S8192x2048) S256x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x2048.size a ≤ S256x2048.size a
  hwx1_6 : ∀ i : grid1.Coords, EltTy.bits .bf16 = 32 ∨ (Rect.block (s := S256x2048) S256x2048.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x2048.size a ≤ S256x2048.size a
  hwx1_7 : ∀ i : grid1.Coords, EltTy.bits .bf16 = 32 ∨ (Rect.block (s := S256x2048) S256x2048.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x2048.size a ≤ S256x2048.size a
  hwx1_8 : ∀ i : grid1.Coords, EltTy.bits .bf16 = 32 ∨ (Rect.block (s := S256x2048) S256x2048.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x2048.size a ≤ S256x2048.size a
  hwx1_9 : ∀ i : grid1.Coords, EltTy.bits .bf16 = 32 ∨ (Rect.block (s := S256x2048) S256x2048.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S256x256.size a ≤ S8192x256.size a
  hwx1_11 : ∀ i : grid1.Coords, EltTy.bits .f32 = 32 ∨ (Rect.block (s := S8192x256) S256x256.size (cc1_transform_11 i) (hinb1_11 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf
def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S256x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S256x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S256x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33) S256x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S256x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S256x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S256x2048.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v18) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v43) S256x256.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S_ : Shape := ⟨0, ![]⟩
abbrev S2304x3072 : Shape := ⟨2, ![2304, 3072]⟩
abbrev S2048x1024 : Shape := ⟨2, ![2048, 1024]⟩
abbrev S8192x2048 : Shape := ⟨2, ![8192, 2048]⟩
abbrev S1024x2048 : Shape := ⟨2, ![1024, 2048]⟩
abbrev S8192x3072 : Shape := ⟨2, ![8192, 3072]⟩
abbrev S256x3072 : Shape := ⟨2, ![256, 3072]⟩
abbrev S8192x256 : Shape := ⟨2, ![8192, 256]⟩
abbrev S3072x256 : Shape := ⟨2, ![3072, 256]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S_, .f32⟩
  | .hbm, ⟨2, _⟩ => ⟨S2304x3072, .i32⟩
  | .hbm, ⟨3, _⟩ => ⟨S2048x1024, .i32⟩
  | .hbm, ⟨4, _⟩ => ⟨S_, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S_, .i32⟩
  | .hbm, ⟨9, _⟩ => ⟨S2048x1024, .i32⟩
  | .hbm, ⟨10, _⟩ => ⟨S2048x1024, .i1⟩
  | .hbm, ⟨11, _⟩ => ⟨S2048x1024, .f32⟩
  | .hbm, ⟨12, _⟩ => ⟨S1024x2048, .f32⟩
  | .hbm, ⟨13, _⟩ => ⟨S8192x2048, .f32⟩
  | .hbm, ⟨14, _⟩ => ⟨S8192x2048, .f32⟩
  | .hbm, ⟨15, _⟩ => ⟨S_, .i32⟩
  | .hbm, ⟨16, _⟩ => ⟨S2048x1024, .i32⟩
  | .hbm, ⟨17, _⟩ => ⟨S2048x1024, .i1⟩
  | .hbm, ⟨18, _⟩ => ⟨S2048x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S1024x2048, .f32⟩
  | .hbm, ⟨23, _⟩ => ⟨S8192x2048, .f32⟩
  | .hbm, ⟨24, _⟩ => ⟨S8192x2048, .f32⟩
  | .hbm, ⟨25, _⟩ => ⟨S_, .i32⟩
  | .hbm, ⟨26, _⟩ => ⟨S2048x1024, .i32⟩
  | .hbm, ⟨27, _⟩ => ⟨S2048x1024, .i1⟩
  | .hbm, ⟨28, _⟩ => ⟨S2048x1024, .f32⟩
  | .hbm, ⟨29, _⟩ => ⟨S8192x1024, .f32⟩
  | .hbm, ⟨30, _⟩ => ⟨S1024x2048, .f32⟩
  | .hbm, ⟨31, _⟩ => ⟨S8192x2048, .f32⟩
  | .hbm, ⟨32, _⟩ => ⟨S8192x2048, .f32⟩
  | .hbm, ⟨33, _⟩ => ⟨S_, .i32⟩
  | .hbm, ⟨34, _⟩ => ⟨S2048x1024, .i32⟩
  | .hbm, ⟨35, _⟩ => ⟨S2048x1024, .i1⟩
  | .hbm, ⟨36, _⟩ => ⟨S2048x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S1024x2048, .f32⟩
  | .hbm, ⟨46, _⟩ => ⟨S8192x2048, .f32⟩
  | .hbm, ⟨47, _⟩ => ⟨S8192x2048, .f32⟩
  | .hbm, ⟨48, _⟩ => ⟨S8192x3072, .f32⟩
  | .hbm, ⟨49, _⟩ => ⟨S256x3072, .i32⟩
  | .hbm, ⟨50, _⟩ => ⟨S_, .f32⟩
  | .hbm, ⟨51, _⟩ => ⟨S8192x256, .f32⟩
  | .hbm, ⟨52, _⟩ => ⟨S8192x3072, .f32⟩
  | .hbm, ⟨53, _⟩ => ⟨S8192x3072, .f32⟩
  | .hbm, ⟨54, _⟩ => ⟨S_, .i32⟩
  | .hbm, ⟨55, _⟩ => ⟨S256x3072, .i32⟩
  | .hbm, ⟨56, _⟩ => ⟨S256x3072, .i1⟩
  | .hbm, ⟨57, _⟩ => ⟨S256x3072, .f32⟩
  | .hbm, ⟨58, _⟩ => ⟨S3072x256, .f32⟩
  | .hbm, ⟨59, _⟩ => ⟨S8192x256, .f32⟩
  | .hbm, ⟨60, _⟩ => ⟨S8192x256, .f32⟩
  | .hbm, ⟨61, _⟩ => ⟨S_, .i32⟩
  | .hbm, ⟨62, _⟩ => ⟨S256x3072, .i32⟩
  | .hbm, ⟨63, _⟩ => ⟨S256x3072, .i1⟩
  | .hbm, ⟨64, _⟩ => ⟨S256x3072, .f32⟩
  | .hbm, ⟨65, _⟩ => ⟨S_, .f32⟩
  | .hbm, ⟨66, _⟩ => ⟨S8192x3072, .f32⟩
  | .hbm, ⟨67, _⟩ => ⟨S8192x3072, .f32⟩
  | .hbm, ⟨68, _⟩ => ⟨S3072x256, .f32⟩
  | .hbm, ⟨69, _⟩ => ⟨S8192x256, .f32⟩
  | .hbm, ⟨70, _⟩ => ⟨S8192x256, .f32⟩
  | .hbm, ⟨71, _⟩ => ⟨S_, .i32⟩
  | .hbm, ⟨72, _⟩ => ⟨S256x3072, .i32⟩
  | .hbm, ⟨73, _⟩ => ⟨S256x3072, .i1⟩
  | .hbm, ⟨74, _⟩ => ⟨S256x3072, .f32⟩
  | .hbm, ⟨75, _⟩ => ⟨S8192x3072, .f32⟩
  | .hbm, ⟨76, _⟩ => ⟨S3072x256, .f32⟩
  | .hbm, ⟨77, _⟩ => ⟨S8192x256, .f32⟩
  | .hbm, ⟨78, _⟩ => ⟨S8192x256, .f32⟩
  | .hbm, ⟨79, _⟩ => ⟨S_, .i32⟩
  | .hbm, ⟨80, _⟩ => ⟨S256x3072, .i32⟩
  | .hbm, ⟨81, _⟩ => ⟨S256x3072, .i1⟩
  | .hbm, ⟨82, _⟩ => ⟨S256x3072, .f32⟩
  | .hbm, ⟨83, _⟩ => ⟨S8192x3072, .f32⟩
  | .hbm, ⟨84, _⟩ => ⟨S8192x3072, .f32⟩
  | .hbm, ⟨85, _⟩ => ⟨S_, .f32⟩
  | .hbm, ⟨86, _⟩ => ⟨S8192x3072, .f32⟩
  | .hbm, ⟨87, _⟩ => ⟨S8192x3072, .f32⟩
  | .hbm, ⟨88, _⟩ => ⟨S_, .f32⟩
  | .hbm, ⟨89, _⟩ => ⟨S8192x3072, .f32⟩
  | .hbm, ⟨90, _⟩ => ⟨S8192x3072, .f32⟩
  | .hbm, ⟨91, _⟩ => ⟨S3072x256, .f32⟩
  | .hbm, ⟨92, _⟩ => ⟨S8192x256, .f32⟩
  | .hbm, ⟨93, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call1_cst : Ref sig .tc := ⟨.hbm, 65, rfl⟩
abbrev main_call1_v0 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]

class Facts₀ : Prop where
  slices_S2304x3072_S2048x1024_0_0 : S2304x3072.Slices ![0, 0] S2048x1024
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S2048x1024 : S_.BroadcastsInDim S2048x1024 (![] : Fin 0 → Fin S2048x1024.rank)
  transposes_S2048x1024_S1024x2048_1_0 : S2048x1024.Transposes [1, 0] S1024x2048
  concatenates_S8192x1024_S8192x2048_S8192x3072_d1 : Shape.Concatenates [S8192x1024, S8192x2048] S8192x3072 1
  slices_S2304x3072_S256x3072_2048_0 : S2304x3072.Slices ![2048, 0] S256x3072
  bcast_S_S8192x256 : S_.BroadcastsInDim S8192x256 (![] : Fin 0 → Fin S8192x256.rank)
  bcast_S_S8192x3072 : S_.BroadcastsInDim S8192x3072 (![] : Fin 0 → Fin S8192x3072.rank)
  bcast_S_S256x3072 : S_.BroadcastsInDim S256x3072 (![] : Fin 0 → Fin S256x3072.rank)
  transposes_S256x3072_S3072x256_1_0 : S256x3072.Transposes [1, 0] S3072x256
  dot_S8192x1024_S1024x2048_S8192x2048_1_0_0_1_n_n_wf : DotDims.WF S8192x1024 S1024x2048 S8192x2048 [1] [0] [0] [1] [] []
  dot_S8192x3072_S3072x256_S8192x256_1_0_0_1_n_n_wf : DotDims.WF S8192x3072 S3072x256 S8192x256 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x3072_S3072x256_S8192x256_1_0_0_1_n_n : DotDims S8192x3072 S3072x256 S8192x256 where
  lhsContracting := [1]
  rhsContracting := [0]
  lhsNonContracting := [0]
  rhsNonContracting := [1]
  lhsBatch := []
  rhsBatch := []
  wf := dot_S8192x3072_S3072x256_S8192x256_1_0_0_1_n_n_wf

class Facts : Prop extends Facts₀ where

variable [Facts]
-- ==== Proof.KernelRun.lean ====
/-
  The idealized kernel's run with its result array named.

  The program is two launches among two stretches of host operations.  Every weakly fair execution terminates, and
  in the final state the result array holds what the second launch's write-backs leave in it, every unscoped buffer
  being at the contents of the last segment boundary; the three argument arrays end as launched.
-/
import proofs.«118198_j89618787598436_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Hand

end
-- ==== Proof.Spec.lean ====
/-
  The mathematics of the two-layer typed message-passing network, on the extended reals.

  A node's value is a sum over its sources of an activation of the weighted source value, the activation chosen per
  edge by a code 1..4 (identity, relu, tanh, logistic) and absent edges contributing zero: with the one-hot masks
  `mₜ` (1 where the edge's code is `t`, else 0) it is
      node = (((0 + Σₖ id(srcₖ)·m₁ₖ) + Σₖ relu(srcₖ)·m₂ₖ) + Σₖ tanh(srcₖ)·m₃ₖ) + Σₖ logistic(srcₖ)·m₄ₖ.
  The first layer's nodes read the inputs; the second layer's read the inputs and the first layer's nodes.  One side
  accumulates the second layer as eight masked sums, four over the inputs then four over the hidden nodes; the other
  as four masked sums over the inputs and the hidden nodes laid side by side.  The two agree because a sum over
  `a + b` sources is the sum over the first `a` plus the sum over the last `b`, and addition of extended reals is
  commutative and associative (no finiteness is needed for that).
-/
import Idealize.ShloMosaic.PureOps.Ideal
import Idealize.ShloMosaic.Lib.ValueIdx
import Idealize.ShloMosaic.Lib.IdealHost

noncomputable section

namespace Cert.TypedNet

open Idealize.ShloMosaic Idealize.ShloMosaic.ValueIdx

/-- relu on the extended reals. -/
def relu (z : EReal) : EReal := max z 0

/-- One masked sum: `Σₖ f(srcₖ) · mskₖ`. -/
def term (f : EReal → EReal) {n : ℕ} (src msk : Fin n → EReal) : EReal := ∑ k : Fin n, f (src k) * msk k

/-- A node's value from its weighted sources and the four one-hot masks, accumulated from zero in the order of the
    activation codes. -/
def node {n : ℕ} (src m1 m2 m3 m4 : Fin n → EReal) : EReal :=
  (((0 + term id src m1) + term relu src m2) + term Ideal.tanh src m3) + term Ideal.logistic src m4

/-- A node with two groups of sources, accumulated group after group: the first group's node, then the second
    group's four masked sums added on. -/
def node2 {a b : ℕ} (srcA a1 a2 a3 a4 : Fin a → EReal) (srcB b1 b2 b3 b4 : Fin b → EReal) : EReal :=
  (((node srcA a1 a2 a3 a4 + term id srcB b1) + term relu srcB b2) + term Ideal.tanh srcB b3) + term Ideal.logistic srcB b4

/-- A masked sum over `a + b` sources is the sum over the first `a` plus the sum over the last `b`. -/
theorem term_add (f : EReal → EReal) (a b : ℕ) (src msk : Fin (a + b) → EReal) :
    term f src msk = term f (fun k => src (Fin.castAdd b k)) (fun k => msk (Fin.castAdd b k))
      + term f (fun k => src (Fin.natAdd a k)) (fun k => msk (Fin.natAdd a k)) := by
  unfold term
  exact Fin.sum_univ_add _

/-- A node over `a + b` sources laid side by side is the two-group node: the eight masked sums regrouped by
    commutativity and associativity of addition. -/
theorem node_add (a b : ℕ) (src m1 m2 m3 m4 : Fin (a + b) → EReal) :
    node src m1 m2 m3 m4
      = node2 (fun k => src (Fin.castAdd b k)) (fun k => m1 (Fin.castAdd b k)) (fun k => m2 (Fin.castAdd b k))
          (fun k => m3 (Fin.castAdd b k)) (fun k => m4 (Fin.castAdd b k))
          (fun k => src (Fin.natAdd a k)) (fun k => m1 (Fin.natAdd a k)) (fun k => m2 (Fin.natAdd a k))
          (fun k => m3 (Fin.natAdd a k)) (fun k => m4 (Fin.natAdd a k)) := by
  unfold node2 node
  rw [term_add id a b, term_add relu a b, term_add Ideal.tanh a b, term_add Ideal.logistic a b]
  abel

/-- The first layer as one function of the arrays it reads: the inputs `x`, the four one-hot masks of the hidden
    rows, and the weight `w` (a 1×1 array).  Entry `(b, r)` is hidden node `r` of batch row `b`. -/
def layer1 (x : (⟨2, ![8192, 1024]⟩ : Shape).Idx → EReal) (k1 k2 k3 k4 : (⟨2, ![2048, 1024]⟩ : Shape).Idx → EReal)
    (w : (⟨2, ![1, 1]⟩ : Shape).Idx → EReal) : (⟨2, ![8192, 2048]⟩ : Shape).Idx → EReal := fun i =>
  node (fun s : Fin 1024 => x (ix2 (i 0) s) * w (ix2 0 0)) (fun s => k1 (ix2 (i 1) s)) (fun s => k2 (ix2 (i 1) s))
    (fun s => k3 (ix2 (i 1) s)) (fun s => k4 (ix2 (i 1) s))

/-- The second layer as one function of the arrays it reads: the inputs, the masks of the output rows over the input
    columns, the hidden nodes `h`, the masks of the output rows over the hidden columns, and the weight. -/
def layer2 (x : (⟨2, ![8192, 1024]⟩ : Shape).Idx → EReal) (k1 k2 k3 k4 : (⟨2, ![256, 1024]⟩ : Shape).Idx → EReal)
    (h : (⟨2, ![8192, 2048]⟩ : Shape).Idx → EReal) (k5 k6 k7 k8 : (⟨2, ![256, 2048]⟩ : Shape).Idx → EReal)
    (w : (⟨2, ![1, 1]⟩ : Shape).Idx → EReal) : (⟨2, ![8192, 256]⟩ : Shape).Idx → EReal := fun i =>
  node2 (fun s : Fin 1024 => x (ix2 (i 0) s) * w (ix2 0 0)) (fun s => k1 (ix2 (i 1) s)) (fun s => k2 (ix2 (i 1) s))
    (fun s => k3 (ix2 (i 1) s)) (fun s => k4 (ix2 (i 1) s))
    (fun s : Fin 2048 => h (ix2 (i 0) s) * w (ix2 0 0)) (fun s => k5 (ix2 (i 1) s)) (fun s => k6 (ix2 (i 1) s))
    (fun s => k7 (ix2 (i 1) s)) (fun s => k8 (ix2 (i 1) s))

/-- The one-hot mask entry for activation code `t` at an edge whose stored code is `v`: the comparison's bit read
    as a number. -/
def hot (t v : BitVec 32) : EReal := (((IntOp.cmpi .eq v t).toNat : ℝ) : EReal)

end Cert.TypedNet

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.Payload.lean ====
/-
  What each kernel body stores, read at one entry on the extended reals.

  The first body multiplies its block of inputs by the weight, applies the four activations, and accumulates from
  zero the four products with the (transposed) one-hot masks; the second does the same for the inputs and then goes on
  with the block of hidden nodes.  A product of a block with a transposed mask into a zero accumulator is, at entry
  `(p, q)`, the sum over `k` of `a[p, k] · b[q, k]`; rounding to a narrower float is the identity here; the zero
  word is zero.  So the stored entry `(p, q)` is the node value of the specification, with the sources row `p` of the
  block times the weight and the masks row `q` of the mask blocks.
-/
import proofs.«118198_j89618787598436_1_alg».proof.Proof.Gen.KernelIdeal.Skeleton
import proofs.«118198_j89618787598436_1_alg».proof.Proof.Spec
import proofs.«118198_j89618787598436_1_alg».proof.Proof.LibLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.TypedNet Cert.LibLayout
open Idealize.ShloMosaic Idealize.ShloMosaic.ValueIdx

/-- The dimension records of the three products: each contracts the second axis of both operands. -/
abbrev dH := dot_S256x1024_S2048x1024_S256x2048_1_1_0_0_n_n
abbrev dX := dot_S256x1024_S256x1024_S256x256_1_1_0_0_n_n
abbrev dG := dot_S256x2048_S256x2048_S256x256_1_1_0_0_n_n

theorem dH_l0 (j : S256x2048.Idx) (k : dH.contr.Idx) : (dH.lhsIdx j k 0).val = (j 0).val := by
  unfold DotDims.lhsIdx
  rw [dif_neg (show ¬(0 : Fin S256x1024.rank) ∈ dH.lhsBatch by decide), dif_pos (show (0 : Fin S256x1024.rank) ∈ dH.lhsNonContracting by decide)]
  rfl
theorem dH_r0 (j : S256x2048.Idx) (k : dH.contr.Idx) : (dH.rhsIdx j k 0).val = (j 1).val := by
  unfold DotDims.rhsIdx
  rw [dif_neg (show ¬(0 : Fin S2048x1024.rank) ∈ dH.rhsBatch by decide), dif_pos (show (0 : Fin S2048x1024.rank) ∈ dH.rhsNonContracting by decide)]
  rfl
theorem dX_l0 (j : S256x256.Idx) (k : dX.contr.Idx) : (dX.lhsIdx j k 0).val = (j 0).val := by
  unfold DotDims.lhsIdx
  rw [dif_neg (show ¬(0 : Fin S256x1024.rank) ∈ dX.lhsBatch by decide), dif_pos (show (0 : Fin S256x1024.rank) ∈ dX.lhsNonContracting by decide)]
  rfl
theorem dX_r0 (j : S256x256.Idx) (k : dX.contr.Idx) : (dX.rhsIdx j k 0).val = (j 1).val := by
  unfold DotDims.rhsIdx
  rw [dif_neg (show ¬(0 : Fin S256x1024.rank) ∈ dX.rhsBatch by decide), dif_pos (show (0 : Fin S256x1024.rank) ∈ dX.rhsNonContracting by decide)]
  rfl
theorem dG_l0 (j : S256x256.Idx) (k : dG.contr.Idx) : (dG.lhsIdx j k 0).val = (j 0).val := by
  unfold DotDims.lhsIdx
  rw [dif_neg (show ¬(0 : Fin S256x2048.rank) ∈ dG.lhsBatch by decide), dif_pos (show (0 : Fin S256x2048.rank) ∈ dG.lhsNonContracting by decide)]
  rfl
theorem dG_r0 (j : S256x256.Idx) (k : dG.contr.Idx) : (dG.rhsIdx j k 0).val = (j 1).val := by
  unfold DotDims.rhsIdx
  rw [dif_neg (show ¬(0 : Fin S256x2048.rank) ∈ dG.rhsBatch by decide), dif_pos (show (0 : Fin S256x2048.rank) ∈ dG.rhsNonContracting by decide)]
  rfl

/-- A block of 256 rows against the 2048 mask rows, over 1024 columns: entry `(p, q)` is `Σₖ a[p,k]·b[q,k]`. -/
theorem mmH (a : FVec Ideal S256x1024 .bf16) (b : FVec Ideal S2048x1024 .bf16) (p : Fin 256) (q : Fin 2048) :
    matmul dH none a b (constant S256x2048 .f32 0x00000000#32) (ix2 p q) = ∑ k : Fin 1024, a (ix2 p k) * b (ix2 q k) :=
  matmul_rows_rows_apply dH rfl rfl rfl rfl dH_l0 dH_r0 none a b p q
/-- A block of 256 rows against the 256 mask rows, over 1024 columns. -/
theorem mmX (a : FVec Ideal S256x1024 .bf16) (b : FVec Ideal S256x1024 .bf16) (p : Fin 256) (q : Fin 256) :
    matmul dX none a b (constant S256x256 .f32 0x00000000#32) (ix2 p q) = ∑ k : Fin 1024, a (ix2 p k) * b (ix2 q k) :=
  matmul_rows_rows_apply dX rfl rfl rfl rfl dX_l0 dX_r0 none a b p q
/-- A block of 256 rows against the 256 mask rows, over 2048 columns. -/
theorem mmG (a : FVec Ideal S256x2048 .bf16) (b : FVec Ideal S256x2048 .bf16) (p : Fin 256) (q : Fin 256) :
    matmul dG none a b (constant S256x256 .f32 0x00000000#32) (ix2 p q) = ∑ k : Fin 2048, a (ix2 p k) * b (ix2 q k) :=
  matmul_rows_rows_apply dG rfl rfl rfl rfl dG_l0 dG_r0 none a b p q

/-- The weight read out of its 1×1 block. -/
theorem weight_eq (w : FVec Ideal S1x1 .f32) (h : ∀ a, (![0, 0] : Fin S1x1.rank → Nat) a < S1x1.size a) :
    extractAt ![0, 0] w h = w (ix2 0 0) :=
  congrArg w (funext fun a => by match a with | ⟨0, _⟩ => rfl | ⟨1, _⟩ => rfl)

/-- The first body's stored entry `(p, q)`: the node value from row `p` of the input block and row `q` of the masks. -/
theorem pay_hidden (w : FVec Ideal S1x1 .f32) (x : FVec Ideal S256x1024 .f32) (k1 k2 k3 k4 : FVec Ideal S2048x1024 .bf16)
    (p : Fin 256) (q : Fin 2048) :
    k0_pay1 (F := Ideal) w x k1 k2 k3 k4 (ix2 p q)
      = node (fun s : Fin 1024 => x (ix2 p s) * w (ix2 0 0)) (fun s => k1 (ix2 q s)) (fun s => k2 (ix2 q s))
          (fun s => k3 (ix2 q s)) (fun s => k4 (ix2 q s)) := by
  unfold k0_pay1 node term relu
  simp only [addf_apply, broadcast_apply, mmH, truncf_apply, shapeCast_self, mulf_apply, maximumf_apply, weight_eq,
    Idealize.ShloMosaic.tanh, Idealize.ShloMosaic.logistic, Ideal.tanh_def, Ideal.logistic_def, Ideal.ofBits_def,
    Ideal.ofBits_zero_f32, id]

/-- The second body's stored entry `(p, q)`: the two-group node value from row `p` of the input block and of the
    hidden block, and row `q` of the eight masks. -/
theorem pay_out (w : FVec Ideal S1x1 .f32) (x : FVec Ideal S256x1024 .f32) (k1 k2 k3 k4 : FVec Ideal S256x1024 .bf16)
    (h : FVec Ideal S256x2048 .f32) (k5 k6 k7 k8 : FVec Ideal S256x2048 .bf16) (p q : Fin 256) :
    k1_pay1 (F := Ideal) (k1_pay3 w x k1 k2 k3 k4) (k1_pay4 w h) (k1_pay5 w h) (k1_pay6 w h) (k1_pay7 w h) k5 k6 k7 k8 (ix2 p q)
      = node2 (fun s : Fin 1024 => x (ix2 p s) * w (ix2 0 0)) (fun s => k1 (ix2 q s)) (fun s => k2 (ix2 q s))
          (fun s => k3 (ix2 q s)) (fun s => k4 (ix2 q s))
          (fun s : Fin 2048 => h (ix2 p s) * w (ix2 0 0)) (fun s => k5 (ix2 q s)) (fun s => k6 (ix2 q s))
          (fun s => k7 (ix2 q s)) (fun s => k8 (ix2 q s)) := by
  unfold k1_pay1 k1_pay3 k1_pay5 k1_pay6 k1_pay7 k1_pay4 k1_pay2 node2 node term relu
  simp only [addf_apply, broadcast_apply, mmX, mmG, truncf_apply, shapeCast_self, mulf_apply, maximumf_apply, weight_eq,
    Idealize.ShloMosaic.tanh, Idealize.ShloMosaic.logistic, Ideal.tanh_def, Ideal.logistic_def, Ideal.ofBits_def,
    Ideal.ofBits_zero_f32, id]

end Cert.KernelIdeal.Hand

end
-- ==== Proof.Hidden.lean ====
/-
  The first launch: the hidden array after the run, as one function of the arrays the launch reads.

  The grid has 32 points.  Point `t` reads rows `256·t … 256·t + 255` of the inputs, the four masks and the weight
  whole, and writes back rows `256·t … 256·t + 255` of the hidden array, every entry the node value of its row of
  inputs and its hidden node's mask rows.  The 32 row blocks tile the array, so it ends holding the first layer of
  the specification at every index.  Everything is stated at the contents `V` the launch finds on entry.
-/
import proofs.«118198_j89618787598436_1_alg».proof.Proof.Gen.KernelIdeal.Frame
import proofs.«118198_j89618787598436_1_alg».proof.Proof.Payload
import Idealize.ShloMosaic.Lib.Pipeline.Value

set_option maxRecDepth 16384

noncomputable section

namespace Cert.KernelIdeal.Hand

open Cert.KernelIdeal Cert.KernelIdeal.Gen Cert.TypedNet
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the inputs' and the output's block row is the point, every other block index 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the first layer of the arrays as the launch finds them. -/
theorem flushed_hidden (c : Dev nD) (t : Fin cfg0.N) :
    (dat0 V c).flushed 6 t = ((cfg0.win 6).blk t).view.read (Elt Ideal)
      (layer1 (V c main_arg0) (V c main_v4) (V c main_v7) (V c main_v10) (V c main_v13) (V c main_v1)) := by
  show (cfg0.win 6).cut (grid0.coords t) ((dat0 V c).after 6 t) = _
  rw [after0_6]
  unfold out0_6
  rw [View.canon_unit_zero hz]
  simp only [View.ld_unit_zero (S := S1x1) hz, View.ld_unit_zero (S := S256x1024) hz, View.ld_unit_zero (S := S2048x1024) hz]
  obtain ⟨a0, a1, b0, b1, c0, c1, d0, d1, e0, e1, f0, f1, g0, g1⟩ := idx0 t
  funext j
  obtain ⟨p, q, rfl⟩ : ∃ (p : Fin 256) (q : Fin 2048), j = ix2 p q := ⟨j 0, j 1, eq_ix2 j⟩
  refine (pay_hidden (iblk0 V c 5 t) (iblk0 V c 0 t) (iblk0 V c 1 t) (iblk0 V c 2 t) (iblk0 V c 3 t) (iblk0 V c 4 t) p q).trans ?_
  show _ = layer1 (V c main_arg0) (V c main_v4) (V c main_v7) (V c main_v10) (V c main_v13) (V c main_v1) (((cfg0.win 6).blk t).view.emb (ix2 p q))
  unfold layer1
  have hx : ∀ s : Fin 1024, iblk0 V c 0 t (ix2 p s) = V c main_arg0 (ix2 ((((cfg0.win 6).blk t).view.emb (ix2 p q)) 0) s) := fun s => by
    show V c main_arg0 (((cfg0.win 0).blk t).view.emb (ix2 p s)) = _
    refine congrArg (V c main_arg0) (funext fun a => Fin.ext ?_)
    match a with
    | ⟨0, _⟩ => show win0_0.index t (0 : Fin 2) * 256 + 1 * p.val = win0_6.index t (0 : Fin 2) * 256 + 1 * p.val; omega
    | ⟨1, _⟩ => show win0_0.index t (1 : Fin 2) * 1024 + 1 * s.val = s.val; omega
  have hw : iblk0 V c 5 t (ix2 0 0) = V c main_v1 (ix2 0 0) := by
    show V c main_v1 (((cfg0.win 5).blk t).view.emb (ix2 0 0)) = _
    refine congrArg (V c main_v1) (funext fun a => Fin.ext ?_)
    match a with
    | ⟨0, _⟩ => show win0_5.index t (0 : Fin 2) * 1 + 1 * 0 = 0; omega
    | ⟨1, _⟩ => show win0_5.index t (1 : Fin 2) * 1 + 1 * 0 = 0; omega
  have h1 : ∀ s : Fin 1024, iblk0 V c 1 t (ix2 q s) = V c main_v4 (ix2 ((((cfg0.win 6).blk t).view.emb (ix2 p q)) 1) s) := fun s => by
    show V c main_v4 (((cfg0.win 1).blk t).view.emb (ix2 q s)) = _
    refine congrArg (V c main_v4) (funext fun a => Fin.ext ?_)
    match a with
    | ⟨0, _⟩ => show win0_1.index t (0 : Fin 2) * 2048 + 1 * q.val = win0_6.index t (1 : Fin 2) * 2048 + 1 * q.val; omega
    | ⟨1, _⟩ => show win0_1.index t (1 : Fin 2) * 1024 + 1 * s.val = s.val; omega
  have h2 : ∀ s : Fin 1024, iblk0 V c 2 t (ix2 q s) = V c main_v7 (ix2 ((((cfg0.win 6).blk t).view.emb (ix2 p q)) 1) s) := fun s => by
    show V c main_v7 (((cfg0.win 2).blk t).view.emb (ix2 q s)) = _
    refine congrArg (V c main_v7) (funext fun a => Fin.ext ?_)
    match a with
    | ⟨0, _⟩ => show win0_2.index t (0 : Fin 2) * 2048 + 1 * q.val = win0_6.index t (1 : Fin 2) * 2048 + 1 * q.val; omega
    | ⟨1, _⟩ => show win0_2.index t (1 : Fin 2) * 1024 + 1 * s.val = s.val; omega
  have h3 : ∀ s : Fin 1024, iblk0 V c 3 t (ix2 q s) = V c main_v10 (ix2 ((((cfg0.win 6).blk t).view.emb (ix2 p q)) 1) s) := fun s => by
    show V c main_v10 (((cfg0.win 3).blk t).view.emb (ix2 q s)) = _
    refine congrArg (V c main_v10) (funext fun a => Fin.ext ?_)
    match a with
    | ⟨0, _⟩ => show win0_3.index t (0 : Fin 2) * 2048 + 1 * q.val = win0_6.index t (1 : Fin 2) * 2048 + 1 * q.val; omega
    | ⟨1, _⟩ => show win0_3.index t (1 : Fin 2) * 1024 + 1 * s.val = s.val; omega
  have h4 : ∀ s : Fin 1024, iblk0 V c 4 t (ix2 q s) = V c main_v13 (ix2 ((((cfg0.win 6).blk t).view.emb (ix2 p q)) 1) s) := fun s => by
    show V c main_v13 (((cfg0.win 4).blk t).view.emb (ix2 q s)) = _
    refine congrArg (V c main_v13) (funext fun a => Fin.ext ?_)
    match a with
    | ⟨0, _⟩ => show win0_4.index t (0 : Fin 2) * 2048 + 1 * q.val = win0_6.index t (1 : Fin 2) * 2048 + 1 * q.val; omega
    | ⟨1, _⟩ => show win0_4.index t (1 : Fin 2) * 1024 + 1 * s.val = s.val; omega
  simp only [hx, hw, h1, h2, h3, h4]

/-- An index of the hidden array is in point `t`'s block iff each coordinate is in the block's range on its axis. -/
theorem mem_blk_hidden (t : Fin cfg0.N) (i : S8192x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v14).slice (win0_6.rect t)).set ↔ _
  rw [View.set_slice_whole, Rect.mem_set_unit]
  exact Iff.rfl

/-- Every index of the hidden array is in the block of the point its row falls in. -/
theorem cover_hidden (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  have hN : cfg0.N = 32 := N_0
  refine ⟨⟨(i 0).val / 256, by rw [hN]; omega⟩, flush0_6 _, ?_⟩
  rw [mem_blk_hidden]
  obtain ⟨-, -, -, -, -, -, -, -, -, -, -, -, g0, g1⟩ := idx0 ⟨(i 0).val / 256, by rw [hN]; omega⟩
  intro a
  match a with
  | ⟨0, _⟩ =>
    show win0_6.index _ (0 : Fin 2) * 256 ≤ (i 0).val ∧ (i 0).val < win0_6.index _ (0 : Fin 2) * 256 + 256
    rw [g0]; show (i 0).val / 256 * 256 ≤ (i 0).val ∧ (i 0).val < (i 0).val / 256 * 256 + 256; omega
  | ⟨1, _⟩ =>
    show win0_6.index _ (1 : Fin 2) * 2048 ≤ (i 1).val ∧ (i 1).val < win0_6.index _ (1 : Fin 2) * 2048 + 2048
    rw [g1]; omega

/-- The hidden array after the first launch: the first layer of the arrays the launch finds. -/
theorem final_hidden (c : Dev nD) :
    (dat0 V c).arrAt 6 cfg0.N
      = layer1 (V c main_arg0) (V c main_v4) (V c main_v7) (V c main_v10) (V c main_v13) (V c main_v1) :=
  (dat0 V c).arrAt_eq_of_cover 6 _ (fun t _ => flushed_hidden V c t) cover_hidden

end Cert.KernelIdeal.Hand

end
-- ==== Proof.Output.lean ====
/-
  The second launch: the result array after the run, as one function of the arrays the launch reads.

  The grid has 32 points.  Point `t` reads rows `256·t … 256·t + 255` of the inputs and of the hidden array, the
  eight masks and the weight whole, and writes back rows `256·t … 256·t + 255` of the result, every entry the
  two-group node value of its row of inputs, its row of hidden nodes and its output node's mask rows.  The 32 row
  blocks tile the result, so it ends holding the second layer of the specification at every index.  Everything is
  stated at the contents `V` the launch finds on entry.
-/
import proofs.«118198_j89618787598436_1_alg».proof.Proof.Gen.KernelIdeal.Frame
import proofs.«118198_j89618787598436_1_alg».proof.Proof.Payload
import Idealize.ShloMosaic.Lib.Pipeline.Value

set_option maxRecDepth 16384

noncomputable section

namespace Cert.KernelIdeal.Hand

open Cert.KernelIdeal Cert.KernelIdeal.Gen Cert.TypedNet
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz' : (![0, 0] : Fin 2 → Nat) = fun _ => 0 := funext fun a => by fin_cases a <;> rfl

/-- The index maps over the grid: the inputs', the hidden array's and the result's block row is the point, every
    other block index 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0 :=
  (by decide +kernel : ∀ t : Fin grid1.N, _)

set_option maxHeartbeats 4000000 in
/-- What point `t` writes back is block `t` of the second layer of the arrays as the launch finds them. -/
theorem flushed_out (c : Dev nD) (t : Fin cfg1.N) :
    (dat1 V c).flushed 11 t = ((cfg1.win 11).blk t).view.read (Elt Ideal)
      (layer2 (V c main_arg0) (V c main_v21) (V c main_v24) (V c main_v27) (V c main_v30) (V c main_v14)
        (V c main_v33) (V c main_v36) (V c main_v39) (V c main_v42) (V c main_v18)) := by
  show (cfg1.win 11).cut (grid1.coords t) ((dat1 V c).after 11 t) = _
  rw [after1_11]
  unfold out1_11
  rw [View.canon_unit_zero hz']
  simp only [View.ld_unit_zero (S := S1x1) hz', View.ld_unit_zero (S := S256x1024) hz', View.ld_unit_zero (S := S256x2048) hz']
  obtain ⟨a0, a1, b0, b1, c0, c1, d0, d1, e0, e1, f0, f1, g0, g1, i0, i1, j0, j1, k0, k1, l0, l1, n0, n1⟩ := idx1 t
  funext j
  obtain ⟨p, q, rfl⟩ : ∃ (p : Fin 256) (q : Fin 256), j = ix2 p q := ⟨j 0, j 1, eq_ix2 j⟩
  refine (pay_out (iblk1 V c 10 t) (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) p q).trans ?_
  show _ = layer2 (V c main_arg0) (V c main_v21) (V c main_v24) (V c main_v27) (V c main_v30) (V c main_v14)
        (V c main_v33) (V c main_v36) (V c main_v39) (V c main_v42) (V c main_v18) (((cfg1.win 11).blk t).view.emb (ix2 p q))
  unfold layer2
  have hx : ∀ s : Fin 1024, iblk1 V c 0 t (ix2 p s) = V c main_arg0 (ix2 ((((cfg1.win 11).blk t).view.emb (ix2 p q)) 0) s) := fun s => by
    show V c main_arg0 (((cfg1.win 0).blk t).view.emb (ix2 p s)) = _
    refine congrArg (V c main_arg0) (funext fun a => Fin.ext ?_)
    match a with
    | ⟨0, _⟩ => show win1_0.index t (0 : Fin 2) * 256 + 1 * p.val = win1_11.index t (0 : Fin 2) * 256 + 1 * p.val; omega
    | ⟨1, _⟩ => show win1_0.index t (1 : Fin 2) * 1024 + 1 * s.val = s.val; omega
  have hh : ∀ s : Fin 2048, iblk1 V c 5 t (ix2 p s) = V c main_v14 (ix2 ((((cfg1.win 11).blk t).view.emb (ix2 p q)) 0) s) := fun s => by
    show V c main_v14 (((cfg1.win 5).blk t).view.emb (ix2 p s)) = _
    refine congrArg (V c main_v14) (funext fun a => Fin.ext ?_)
    match a with
    | ⟨0, _⟩ => show win1_5.index t (0 : Fin 2) * 256 + 1 * p.val = win1_11.index t (0 : Fin 2) * 256 + 1 * p.val; omega
    | ⟨1, _⟩ => show win1_5.index t (1 : Fin 2) * 2048 + 1 * s.val = s.val; omega
  have hw : iblk1 V c 10 t (ix2 0 0) = V c main_v18 (ix2 0 0) := by
    show V c main_v18 (((cfg1.win 10).blk t).view.emb (ix2 0 0)) = _
    refine congrArg (V c main_v18) (funext fun a => Fin.ext ?_)
    match a with
    | ⟨0, _⟩ => show win1_10.index t (0 : Fin 2) * 1 + 1 * 0 = 0; omega
    | ⟨1, _⟩ => show win1_10.index t (1 : Fin 2) * 1 + 1 * 0 = 0; omega
  have h1 : ∀ s : Fin 1024, iblk1 V c 1 t (ix2 q s) = V c main_v21 (ix2 ((((cfg1.win 11).blk t).view.emb (ix2 p q)) 1) s) := fun s => by
    show V c main_v21 (((cfg1.win 1).blk t).view.emb (ix2 q s)) = _
    refine congrArg (V c main_v21) (funext fun a => Fin.ext ?_)
    match a with
    | ⟨0, _⟩ => show win1_1.index t (0 : Fin 2) * 256 + 1 * q.val = win1_11.index t (1 : Fin 2) * 256 + 1 * q.val; omega
    | ⟨1, _⟩ => show win1_1.index t (1 : Fin 2) * 1024 + 1 * s.val = s.val; omega
  have h2 : ∀ s : Fin 1024, iblk1 V c 2 t (ix2 q s) = V c main_v24 (ix2 ((((cfg1.win 11).blk t).view.emb (ix2 p q)) 1) s) := fun s => by
    show V c main_v24 (((cfg1.win 2).blk t).view.emb (ix2 q s)) = _
    refine congrArg (V c main_v24) (funext fun a => Fin.ext ?_)
    match a with
    | ⟨0, _⟩ => show win1_2.index t (0 : Fin 2) * 256 + 1 * q.val = win1_11.index t (1 : Fin 2) * 256 + 1 * q.val; omega
    | ⟨1, _⟩ => show win1_2.index t (1 : Fin 2) * 1024 + 1 * s.val = s.val; omega
  have h3 : ∀ s : Fin 1024, iblk1 V c 3 t (ix2 q s) = V c main_v27 (ix2 ((((cfg1.win 11).blk t).view.emb (ix2 p q)) 1) s) := fun s => by
    show V c main_v27 (((cfg1.win 3).blk t).view.emb (ix2 q s)) = _
    refine congrArg (V c main_v27) (funext fun a => Fin.ext ?_)
    match a with
    | ⟨0, _⟩ => show win1_3.index t (0 : Fin 2) * 256 + 1 * q.val = win1_11.index t (1 : Fin 2) * 256 + 1 * q.val; omega
    | ⟨1, _⟩ => show win1_3.index t (1 : Fin 2) * 1024 + 1 * s.val = s.val; omega
  have h4 : ∀ s : Fin 1024, iblk1 V c 4 t (ix2 q s) = V c main_v30 (ix2 ((((cfg1.win 11).blk t).view.emb (ix2 p q)) 1) s) := fun s => by
    show V c main_v30 (((cfg1.win 4).blk t).view.emb (ix2 q s)) = _
    refine congrArg (V c main_v30) (funext fun a => Fin.ext ?_)
    match a with
    | ⟨0, _⟩ => show win1_4.index t (0 : Fin 2) * 256 + 1 * q.val = win1_11.index t (1 : Fin 2) * 256 + 1 * q.val; omega
    | ⟨1, _⟩ => show win1_4.index t (1 : Fin 2) * 1024 + 1 * s.val = s.val; omega
  have h5 : ∀ s : Fin 2048, iblk1 V c 6 t (ix2 q s) = V c main_v33 (ix2 ((((cfg1.win 11).blk t).view.emb (ix2 p q)) 1) s) := fun s => by
    show V c main_v33 (((cfg1.win 6).blk t).view.emb (ix2 q s)) = _
    refine congrArg (V c main_v33) (funext fun a => Fin.ext ?_)
    match a with
    | ⟨0, _⟩ => show win1_6.index t (0 : Fin 2) * 256 + 1 * q.val = win1_11.index t (1 : Fin 2) * 256 + 1 * q.val; omega
    | ⟨1, _⟩ => show win1_6.index t (1 : Fin 2) * 2048 + 1 * s.val = s.val; omega
  have h6 : ∀ s : Fin 2048, iblk1 V c 7 t (ix2 q s) = V c main_v36 (ix2 ((((cfg1.win 11).blk t).view.emb (ix2 p q)) 1) s) := fun s => by
    show V c main_v36 (((cfg1.win 7).blk t).view.emb (ix2 q s)) = _
    refine congrArg (V c main_v36) (funext fun a => Fin.ext ?_)
    match a with
    | ⟨0, _⟩ => show win1_7.index t (0 : Fin 2) * 256 + 1 * q.val = win1_11.index t (1 : Fin 2) * 256 + 1 * q.val; omega
    | ⟨1, _⟩ => show win1_7.index t (1 : Fin 2) * 2048 + 1 * s.val = s.val; omega
  have h7 : ∀ s : Fin 2048, iblk1 V c 8 t (ix2 q s) = V c main_v39 (ix2 ((((cfg1.win 11).blk t).view.emb (ix2 p q)) 1) s) := fun s => by
    show V c main_v39 (((cfg1.win 8).blk t).view.emb (ix2 q s)) = _
    refine congrArg (V c main_v39) (funext fun a => Fin.ext ?_)
    match a with
    | ⟨0, _⟩ => show win1_8.index t (0 : Fin 2) * 256 + 1 * q.val = win1_11.index t (1 : Fin 2) * 256 + 1 * q.val; omega
    | ⟨1, _⟩ => show win1_8.index t (1 : Fin 2) * 2048 + 1 * s.val = s.val; omega
  have h8 : ∀ s : Fin 2048, iblk1 V c 9 t (ix2 q s) = V c main_v42 (ix2 ((((cfg1.win 11).blk t).view.emb (ix2 p q)) 1) s) := fun s => by
    show V c main_v42 (((cfg1.win 9).blk t).view.emb (ix2 q s)) = _
    refine congrArg (V c main_v42) (funext fun a => Fin.ext ?_)
    match a with
    | ⟨0, _⟩ => show win1_9.index t (0 : Fin 2) * 256 + 1 * q.val = win1_11.index t (1 : Fin 2) * 256 + 1 * q.val; omega
    | ⟨1, _⟩ => show win1_9.index t (1 : Fin 2) * 2048 + 1 * s.val = s.val; omega
  simp only [hx, hh, hw, h1, h2, h3, h4, h5, h6, h7, h8]

/-- An index of the result array is in point `t`'s block iff each coordinate is in the block's range on its axis. -/
theorem mem_blk_out (t : Fin cfg1.N) (i : S8192x256.Idx) :
    i ∈ ((cfg1.win 11).blk t).view.set ↔ ∀ a : Fin 2, win1_11.index t a * S256x256.size a ≤ (i a).val ∧ (i a).val < win1_11.index t a * S256x256.size a + S256x256.size a := by
  show i ∈ ((View.whole main_v43).slice (win1_11.rect t)).set ↔ _
  rw [View.set_slice_whole, Rect.mem_set_unit]
  exact Iff.rfl

/-- Every index of the result array is in the block of the point its row falls in. -/
theorem cover_out (i : S8192x256.Idx) :
    ∃ t : Fin cfg1.N, (cfg1.win 11).flush t = true ∧ i ∈ ((cfg1.win 11).blk t).view.set := by
  have hi0 : (i 0).val < 8192 := (i 0).isLt
  have hi1 : (i 1).val < 256 := (i 1).isLt
  have hN : cfg1.N = 32 := N_1
  refine ⟨⟨(i 0).val / 256, by rw [hN]; omega⟩, flush1_11 _, ?_⟩
  rw [mem_blk_out]
  obtain ⟨-, -, -, -, -, -, -, -, -, -, -, -, -, -, -, -, -, -, -, -, -, -, n0, n1⟩ := idx1 ⟨(i 0).val / 256, by rw [hN]; omega⟩
  intro a
  match a with
  | ⟨0, _⟩ =>
    show win1_11.index _ (0 : Fin 2) * 256 ≤ (i 0).val ∧ (i 0).val < win1_11.index _ (0 : Fin 2) * 256 + 256
    rw [n0]; show (i 0).val / 256 * 256 ≤ (i 0).val ∧ (i 0).val < (i 0).val / 256 * 256 + 256; omega
  | ⟨1, _⟩ =>
    show win1_11.index _ (1 : Fin 2) * 256 ≤ (i 1).val ∧ (i 1).val < win1_11.index _ (1 : Fin 2) * 256 + 256
    rw [n1]; omega

/-- The result array after the second launch: the second layer of the arrays the launch finds. -/
theorem final_out (c : Dev nD) :
    (dat1 V c).arrAt 11 cfg1.N
      = layer2 (V c main_arg0) (V c main_v21) (V c main_v24) (V c main_v27) (V c main_v30) (V c main_v14)
          (V c main_v33) (V c main_v36) (V c main_v39) (V c main_v42) (V c main_v18) :=
  (dat1 V c).arrAt_eq_of_cover 11 _ (fun t _ => flushed_out V c t) cover_out

end Cert.KernelIdeal.Hand

end
-- ==== Proof.Net.lean ====
/-
  The whole network as one function of the three arguments: the inputs `X` (8192 × 1024), the weight `w` (a
  scalar) and the matrix of activation codes `M` (2304 × 3072: rows 0–2047 are the hidden nodes, rows 2048–2303
  the output nodes; columns 0–1023 are the inputs, columns 1024–3071 the hidden nodes).
-/
import proofs.«118198_j89618787598436_1_alg».proof.Proof.Spec

noncomputable section

namespace Cert.TypedNet

open Idealize.ShloMosaic Idealize.ShloMosaic.ValueIdx

/-- The one-hot mask of code `t` over the hidden rows and the input columns. -/
def mH (t : BitVec 32) (M : (⟨2, ![2304, 3072]⟩ : Shape).Idx → BitVec 32) : (⟨2, ![2048, 1024]⟩ : Shape).Idx → EReal :=
  fun i => hot t (M (ix2 ⟨(i 0).val, by have h : (i 0).val < 2048 := (i 0).isLt; omega⟩
    ⟨(i 1).val, by have h : (i 1).val < 1024 := (i 1).isLt; omega⟩))

/-- The one-hot mask of code `t` over the output rows and the input columns. -/
def mX (t : BitVec 32) (M : (⟨2, ![2304, 3072]⟩ : Shape).Idx → BitVec 32) : (⟨2, ![256, 1024]⟩ : Shape).Idx → EReal :=
  fun i => hot t (M (ix2 ⟨2048 + (i 0).val, by have h : (i 0).val < 256 := (i 0).isLt; omega⟩
    ⟨(i 1).val, by have h : (i 1).val < 1024 := (i 1).isLt; omega⟩))

/-- The one-hot mask of code `t` over the output rows and the hidden columns. -/
def mG (t : BitVec 32) (M : (⟨2, ![2304, 3072]⟩ : Shape).Idx → BitVec 32) : (⟨2, ![256, 2048]⟩ : Shape).Idx → EReal :=
  fun i => hot t (M (ix2 ⟨2048 + (i 0).val, by have h : (i 0).val < 256 := (i 0).isLt; omega⟩
    ⟨1024 + (i 1).val, by have h : (i 1).val < 2048 := (i 1).isLt; omega⟩))

/-- The scalar weight as a 1×1 array. -/
def wArr (w : (⟨0, ![]⟩ : Shape).Idx → EReal) : (⟨2, ![1, 1]⟩ : Shape).Idx → EReal := fun _ => w ix0

/-- The hidden nodes. -/
def hiddenOf (X : (⟨2, ![8192, 1024]⟩ : Shape).Idx → EReal) (w : (⟨0, ![]⟩ : Shape).Idx → EReal)
    (M : (⟨2, ![2304, 3072]⟩ : Shape).Idx → BitVec 32) : (⟨2, ![8192, 2048]⟩ : Shape).Idx → EReal :=
  layer1 X (mH 1#32 M) (mH 2#32 M) (mH 3#32 M) (mH 4#32 M) (wArr w)

/-- The output nodes: the network's result. -/
def net (X : (⟨2, ![8192, 1024]⟩ : Shape).Idx → EReal) (w : (⟨0, ![]⟩ : Shape).Idx → EReal)
    (M : (⟨2, ![2304, 3072]⟩ : Shape).Idx → BitVec 32) : (⟨2, ![8192, 256]⟩ : Shape).Idx → EReal :=
  layer2 X (mX 1#32 M) (mX 2#32 M) (mX 3#32 M) (mX 4#32 M) (hiddenOf X w M)
    (mG 1#32 M) (mG 2#32 M) (mG 3#32 M) (mG 4#32 M) (wArr w)

end Cert.TypedNet

end
-- ==== Proof.LibOneHot.lean ====
/-
  A one-hot mask computed on the host, read at an index.

  The mask of the entries of an integer matrix equal to a given code is computed as: cut a window out of the matrix
  (a unit-stride slice), compare it for equality with the code splat over the window, and convert the comparison's
  bit to a float.  On the extended reals the converted bit is the bit read as a number, whatever the float format,
  so the mask at an index is that number for the matrix entry the slice reads there.
-/
import Idealize.ShloMosaic.PureOps.Ideal
import Idealize.ShloMosaic.Lib.ValueIdx
import Idealize.ShloMosaic.Lib.Pipeline.Value

noncomputable section

namespace Cert.LibOneHot

open Idealize.ShloMosaic Idealize.ShloMosaic.ValueIdx

/-- The mask `convert (compare EQ (slice M) (splat code))` at index `j` of the window is the comparison bit of the
    matrix entry `M k` with the code, as a number; `k` is `j` moved by the slice's offsets (`hk`). -/
theorem onehot_apply {s t : Shape} (off : Fin s.rank → Nat) (M : s.Idx → BitVec 32) (hs : s.Slices off t)
    (hb : (⟨0, ![]⟩ : Shape).BroadcastsInDim t ![]) (code : BitVec 32) (φ : FTy) (j : t.Idx) (k : s.Idx)
    (hk : ∀ a : Fin s.rank, (k a).val = off a + (j (a.cast hs.1.symm)).val) :
    (uitofp (F := Ideal) φ (cmpi .eq (extractStridedSlice t off M hs)
        (broadcastInDim t ![] hb (constantI ⟨0, ![]⟩ 32 code))) : t.Idx → EReal) j
      = (((IntOp.cmpi .eq (M k) code).toNat : ℝ) : EReal) := by
  show (((IntOp.cmpi .eq (extractStridedSlice t off M hs j) (broadcastInDim t ![] hb (constantI ⟨0, ![]⟩ 32 code) j)).toNat : ℝ) : EReal) = _
  rw [extractStridedSlice_apply off M hs j k hk, broadcastInDim_apply ![] hb (constantI ⟨0, ![]⟩ 32 code) j ix0 (fun a => a.elim0)]
  rfl

end Cert.LibOneHot

end
-- ==== Proof.HostSide.lean ====
/-
  The arrays each launch finds on entry, as functions of the launch memory.

  Before the first launch the host cuts the hidden rows × input columns out of the code matrix, compares the window
  with each of the codes 1–4 and converts the bits to floats (the four one-hot masks), and reshapes the scalar weight
  to a 1×1 array; the inputs are an argument no host operation writes.  Before the second launch it does the same for
  the output rows, once over the input columns and once over the hidden columns; the hidden array is what the first
  launch left, and no host operation of the second stretch writes it or an argument.
-/
import proofs.«118198_j89618787598436_1_alg».proof.Proof.Gen.KernelIdeal.Frame
import proofs.«118198_j89618787598436_1_alg».proof.Proof.Net
import proofs.«118198_j89618787598436_1_alg».proof.Proof.LibOneHot
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.TypedNet Cert.LibOneHot
open Idealize.ShloMosaic Idealize.ShloMosaic.TcCoe Idealize.ShloMosaic.ValueIdx Idealize.SL.Sem Idealize.ShloMosaic.StableHlo
open Idealize.ShloMosaic.Pipeline (Dat)

/-! ## The three families of masks -/

/-- Hidden rows × input columns: the window at offsets (0, 0). -/
theorem maskH_eq (M : S2304x3072.Idx → BitVec 32) (code : BitVec 32) :
    (uitofp (F := Ideal) .bf16 (cmpi .eq (extractStridedSlice S2048x1024 ![0, 0] M slices_S2304x3072_S2048x1024_0_0)
      (broadcastInDim S2048x1024 ![] bcast_S_S2048x1024 (constantI S_ 32 code))) : S2048x1024.Idx → EReal) = mH code M := by
  funext i
  have h0 : (i 0).val < 2048 := (i 0).isLt
  have h1 : (i 1).val < 1024 := (i 1).isLt
  unfold mH hot
  exact onehot_apply _ M slices_S2304x3072_S2048x1024_0_0 bcast_S_S2048x1024 code .bf16 i
    (ix2 ⟨(i 0).val, by omega⟩ ⟨(i 1).val, by omega⟩) (fun a => by
      match a with
      | ⟨0, _⟩ => exact (Nat.zero_add _).symm
      | ⟨1, _⟩ => exact (Nat.zero_add _).symm)

/-- Output rows × input columns: rows from 2048, then the columns from 0. -/
theorem maskX_eq (M : S2304x3072.Idx → BitVec 32) (code : BitVec 32) :
    (uitofp (F := Ideal) .bf16 (cmpi .eq (extractStridedSlice S256x1024 ![0, 0]
        (extractStridedSlice S256x3072 ![2048, 0] M slices_S2304x3072_S256x3072_2048_0) slices_S256x3072_S256x1024_0_0)
      (broadcastInDim S256x1024 ![] bcast_S_S256x1024 (constantI S_ 32 code))) : S256x1024.Idx → EReal) = mX code M := by
  funext i
  have h0 : (i 0).val < 256 := (i 0).isLt
  have h1 : (i 1).val < 1024 := (i 1).isLt
  unfold mX hot
  refine (onehot_apply _ _ slices_S256x3072_S256x1024_0_0 bcast_S_S256x1024 code .bf16 i
    (ix2 ⟨(i 0).val, h0⟩ ⟨(i 1).val, by omega⟩) (fun a => by
      match a with
      | ⟨0, _⟩ => exact (Nat.zero_add _).symm
      | ⟨1, _⟩ => exact (Nat.zero_add _).symm)).trans ?_
  rw [extractStridedSlice_apply ![2048, 0] M slices_S2304x3072_S256x3072_2048_0 (ix2 ⟨(i 0).val, h0⟩ ⟨(i 1).val, by omega⟩)
    (ix2 ⟨2048 + (i 0).val, by omega⟩ ⟨(i 1).val, by omega⟩) (fun a => by
      match a with
      | ⟨0, _⟩ => rfl
      | ⟨1, _⟩ => exact (Nat.zero_add _).symm)]

/-- Output rows × hidden columns: rows from 2048, then the columns from 1024. -/
theorem maskG_eq (M : S2304x3072.Idx → BitVec 32) (code : BitVec 32) :
    (uitofp (F := Ideal) .bf16 (cmpi .eq (extractStridedSlice S256x2048 ![0, 1024]
        (extractStridedSlice S256x3072 ![2048, 0] M slices_S2304x3072_S256x3072_2048_0) slices_S256x3072_S256x2048_0_1024)
      (broadcastInDim S256x2048 ![] bcast_S_S256x2048 (constantI S_ 32 code))) : S256x2048.Idx → EReal) = mG code M := by
  funext i
  have h0 : (i 0).val < 256 := (i 0).isLt
  have h1 : (i 1).val < 2048 := (i 1).isLt
  unfold mG hot
  refine (onehot_apply _ _ slices_S256x3072_S256x2048_0_1024 bcast_S_S256x2048 code .bf16 i
    (ix2 ⟨(i 0).val, h0⟩ ⟨1024 + (i 1).val, by omega⟩) (fun a => by
      match a with
      | ⟨0, _⟩ => exact (Nat.zero_add _).symm
      | ⟨1, _⟩ => rfl)).trans ?_
  rw [extractStridedSlice_apply ![2048, 0] M slices_S2304x3072_S256x3072_2048_0 (ix2 ⟨(i 0).val, h0⟩ ⟨1024 + (i 1).val, by omega⟩)
    (ix2 ⟨2048 + (i 0).val, by omega⟩ ⟨1024 + (i 1).val, by omega⟩) (fun a => by
      match a with
      | ⟨0, _⟩ => rfl
      | ⟨1, _⟩ => exact (Nat.zero_add _).symm)]

/-- The scalar reshaped to 1×1 holds the scalar at its one index. -/
theorem weight_arr (w : S_.Idx → EReal) : (shapeCast S1x1 w shapeCasts_S_S1x1 : S1x1.Idx → EReal) = wArr w := by
  funext i
  refine shapeCast_apply w shapeCasts_S_S1x1 i ix0 ?_
  have h1 : (S_.rowMajor ix0).val < 1 := (S_.rowMajor ix0).isLt
  have h2 : (S1x1.rowMajor i).val < 1 := (S1x1.rowMajor i).isLt
  omega

variable (m : (ℓ : Loc nD τ sig) → Buf (Elt Ideal) ℓ) (ρ : Dev nD → PrngReg)

/-! ## The arguments at the segment boundaries -/

theorem W1_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) :=
  (W2_of_ne m ρ c main_arg1 (by decide)).trans (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W2_arg2 (c : Dev nD) : W2 m ρ c (Proc.devRef .tc main_arg2) = m ((c : Thread nD τ).loc main_arg2) :=
  (W2_of_ne m ρ c main_arg2 (by decide)).trans (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## What the first launch finds -/

theorem V1_x (c : Dev nD) : V1 m ρ c main_arg0 = m ((c : Thread nD τ).loc main_arg0) := W1_arg0 m ρ c

theorem V1_k1 (c : Dev nD) : (V1 m ρ c main_v4 : S2048x1024.Idx → EReal) = mH 1#32 (m ((c : Thread nD τ).loc main_arg2)) := by
  show StableHlo.after hostOps0 (W0 m ρ c) (Proc.devRef .tc main_v4) = _
  after_results
  exact maskH_eq _ _
theorem V1_k2 (c : Dev nD) : (V1 m ρ c main_v7 : S2048x1024.Idx → EReal) = mH 2#32 (m ((c : Thread nD τ).loc main_arg2)) := by
  show StableHlo.after hostOps0 (W0 m ρ c) (Proc.devRef .tc main_v7) = _
  after_results
  exact maskH_eq _ _
theorem V1_k3 (c : Dev nD) : (V1 m ρ c main_v10 : S2048x1024.Idx → EReal) = mH 3#32 (m ((c : Thread nD τ).loc main_arg2)) := by
  show StableHlo.after hostOps0 (W0 m ρ c) (Proc.devRef .tc main_v10) = _
  after_results
  exact maskH_eq _ _
theorem V1_k4 (c : Dev nD) : (V1 m ρ c main_v13 : S2048x1024.Idx → EReal) = mH 4#32 (m ((c : Thread nD τ).loc main_arg2)) := by
  show StableHlo.after hostOps0 (W0 m ρ c) (Proc.devRef .tc main_v13) = _
  after_results
  exact maskH_eq _ _
theorem V1_w (c : Dev nD) : (V1 m ρ c main_v1 : S1x1.Idx → EReal) = wArr (m ((c : Thread nD τ).loc main_arg1)) := by
  show StableHlo.after hostOps0 (W0 m ρ c) (Proc.devRef .tc main_v1) = _
  after_results
  exact weight_arr _

/-! ## What the second launch finds -/

theorem V3_x (c : Dev nD) : V3 m ρ c main_arg0 = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg0 m ρ c)

/-- The hidden array is what the first launch's write-backs left. -/
theorem V3_h (c : Dev nD) : V3 m ρ c main_v14 = (dat0 (V1 m ρ) c).arrAt 6 cfg0.N :=
  (StableHlo.after_of_forall_not_mem (b := Proc.devRef .tc main_v14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arr m ρ c 6)

theorem V3_k1 (c : Dev nD) : (V3 m ρ c main_v21 : S256x1024.Idx → EReal) = mX 1#32 (m ((c : Thread nD τ).loc main_arg2)) := by
  show StableHlo.after hostOps1 (W2 m ρ c) (Proc.devRef .tc main_v21) = _
  after_results
  rw [W2_arg2 m ρ c]
  exact maskX_eq _ _
theorem V3_k2 (c : Dev nD) : (V3 m ρ c main_v24 : S256x1024.Idx → EReal) = mX 2#32 (m ((c : Thread nD τ).loc main_arg2)) := by
  show StableHlo.after hostOps1 (W2 m ρ c) (Proc.devRef .tc main_v24) = _
  after_results
  rw [W2_arg2 m ρ c]
  exact maskX_eq _ _
theorem V3_k3 (c : Dev nD) : (V3 m ρ c main_v27 : S256x1024.Idx → EReal) = mX 3#32 (m ((c : Thread nD τ).loc main_arg2)) := by
  show StableHlo.after hostOps1 (W2 m ρ c) (Proc.devRef .tc main_v27) = _
  after_results
  rw [W2_arg2 m ρ c]
  exact maskX_eq _ _
theorem V3_k4 (c : Dev nD) : (V3 m ρ c main_v30 : S256x1024.Idx → EReal) = mX 4#32 (m ((c : Thread nD τ).loc main_arg2)) := by
  show StableHlo.after hostOps1 (W2 m ρ c) (Proc.devRef .tc main_v30) = _
  after_results
  rw [W2_arg2 m ρ c]
  exact maskX_eq _ _
theorem V3_k5 (c : Dev nD) : (V3 m ρ c main_v33 : S256x2048.Idx → EReal) = mG 1#32 (m ((c : Thread nD τ).loc main_arg2)) := by
  show StableHlo.after hostOps1 (W2 m ρ c) (Proc.devRef .tc main_v33) = _
  after_results
  rw [W2_arg2 m ρ c]
  exact maskG_eq _ _
theorem V3_k6 (c : Dev nD) : (V3 m ρ c main_v36 : S256x2048.Idx → EReal) = mG 2#32 (m ((c : Thread nD τ).loc main_arg2)) := by
  show StableHlo.after hostOps1 (W2 m ρ c) (Proc.devRef .tc main_v36) = _
  after_results
  rw [W2_arg2 m ρ c]
  exact maskG_eq _ _
theorem V3_k7 (c : Dev nD) : (V3 m ρ c main_v39 : S256x2048.Idx → EReal) = mG 3#32 (m ((c : Thread nD τ).loc main_arg2)) := by
  show StableHlo.after hostOps1 (W2 m ρ c) (Proc.devRef .tc main_v39) = _
  after_results
  rw [W2_arg2 m ρ c]
  exact maskG_eq _ _
theorem V3_k8 (c : Dev nD) : (V3 m ρ c main_v42 : S256x2048.Idx → EReal) = mG 4#32 (m ((c : Thread nD τ).loc main_arg2)) := by
  show StableHlo.after hostOps1 (W2 m ρ c) (Proc.devRef .tc main_v42) = _
  after_results
  rw [W2_arg2 m ρ c]
  exact maskG_eq _ _
theorem V3_w (c : Dev nD) : (V3 m ρ c main_v18 : S1x1.Idx → EReal) = wArr (m ((c : Thread nD τ).loc main_arg1)) := by
  show StableHlo.after hostOps1 (W2 m ρ c) (Proc.devRef .tc main_v18) = _
  after_results
  rw [W2_arg1 m ρ c]
  exact weight_arr _

end Cert.KernelIdeal.Hand

end
-- ==== Proof.KernelValue.lean ====
/-
  The idealized kernel's result is the network of the specification.

  The result array ends at what the second launch's write-backs leave: the second layer of the arrays that launch
  finds.  Those are the inputs, the eight one-hot masks of the output rows, the weight, and the hidden array the first
  launch left, which is the first layer of the inputs, the four masks of the hidden rows and the weight.
-/
import proofs.«118198_j89618787598436_1_alg».proof.Proof.KernelRun
import proofs.«118198_j89618787598436_1_alg».proof.Proof.Hidden
import proofs.«118198_j89618787598436_1_alg».proof.Proof.Output
import proofs.«118198_j89618787598436_1_alg».proof.Proof.HostSide

set_option maxRecDepth 16384

noncomputable section

namespace Cert.KernelIdeal.Hand

open Cert.KernelIdeal Cert.KernelIdeal.Gen Cert.TypedNet
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The hidden array after the first launch: the hidden nodes of the arguments. -/
theorem hidden_net (c : Dev nD) : (dat0 (V1 m ρ) c).arrAt 6 cfg0.N
    = hiddenOf (m ((c : Thread nD τ).loc main_arg0)) (m ((c : Thread nD τ).loc main_arg1)) (m ((c : Thread nD τ).loc main_arg2)) := by
  rw [final_hidden (V1 m ρ) c, V1_x m ρ c, V1_k1 m ρ c, V1_k2 m ρ c, V1_k3 m ρ c, V1_k4 m ρ c, V1_w m ρ c]
  rfl

/-- The result array at the last boundary: the network of the arguments. -/
theorem result_net (c : Dev nD) : W4 m ρ c (Proc.devRef .tc main_v43)
    = net (m ((c : Thread nD τ).loc main_arg0)) (m ((c : Thread nD τ).loc main_arg1)) (m ((c : Thread nD τ).loc main_arg2)) := by
  refine (W4_arr m ρ c 11).trans ?_
  rw [final_out (V3 m ρ) c, V3_x m ρ c, V3_k1 m ρ c, V3_k2 m ρ c, V3_k3 m ρ c, V3_k4 m ρ c, V3_h m ρ c, hidden_net m ρ c,
    V3_k5 m ρ c, V3_k6 m ρ c, V3_k7 m ρ c, V3_k8 m ρ c, V3_w m ρ c]
  rfl

/-- The run: the result array ends at the network of the arguments, the arguments as launched. -/
theorem run_net : θ_run defs (onTc (τ := τ) (main (F := Ideal))) ⟨m, fun _ => 0, ρ⟩ (fun r => ∀ c : Dev nD,
      r.2.mem ((c.tc : Thread nD τ).loc main_v43)
        = net (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_net m ρ c), (h c).2⟩) (run_result m ρ)

end Cert.KernelIdeal.Hand

end
-- ==== Proof.RefHidden.lean ====
/-
  The reference's hidden stage is the first layer of the specification.

  The reference multiplies the inputs by the weight (weight first), applies each activation to the whole product,
  and multiplies each result with the transposed one-hot mask of its code, adding the four products onto zero.  Read
  at entry `(b, r)`, a product with a transposed mask is the sum over the input columns `k` of the activated source
  `(b, k)` times the mask entry `(r, k)`.  The logistic is spelt `1 / (1 + e^(-z))`, which is the logistic function
  on every extended real; the constants are the words of zero and one; `w · x = x · w`.
-/
import proofs.«118198_j89618787598436_1_alg».proof.Proof.Gen.ReferenceIdeal.Read
import proofs.«118198_j89618787598436_1_alg».proof.Proof.Net
import Idealize.ShloMosaic.Lib.IdealHost
import Idealize.ShloMosaic.PureOps.Ideal.Laws

set_option maxRecDepth 16384

noncomputable section

namespace Cert.ReferenceIdeal.Hand

open Cert.ReferenceIdeal Cert.ReferenceIdeal.Gen Cert.ReferenceIdeal.Read Cert.TypedNet
open Idealize.ShloMosaic Idealize.ShloMosaic.ValueIdx

variable (x0 : (⟨S8192x1024, .f32⟩ : BufTy).Contents (Elt Ideal)) (x1 : (⟨S_, .f32⟩ : BufTy).Contents (Elt Ideal))
  (x2 : (⟨S2304x3072, .i32⟩ : BufTy).Contents (Elt Ideal))

/-! ## The four activated sources -/

theorem src_id (j : S8192x1024.Idx) : val_main_v3 (F := Ideal) x0 x1 j = (x0 j : EReal) * x1 ix0 := by
  rw [val_main_v3_apply, val_main_v2_apply]
  exact mul_comm _ _

theorem src_relu (j : S8192x1024.Idx) : val_main_v13 (F := Ideal) x0 x1 j = relu ((x0 j : EReal) * x1 ix0) := by
  rw [val_main_v13_apply, src_id, val_main_call0_v0_apply, val_main_call0_cst_apply]
  show max _ (Ideal.ofBits .f32 0x00000000#32) = max _ 0
  rw [Ideal.ofBits_zero_f32]

theorem src_tanh (j : S8192x1024.Idx) : val_main_v20 (F := Ideal) x0 x1 j = Ideal.tanh ((x0 j : EReal) * x1 ix0) := by
  rw [val_main_v20_apply, src_id]
  rfl

theorem src_logistic (j : S8192x1024.Idx) : val_main_v32 (F := Ideal) x0 x1 j = Ideal.logistic ((x0 j : EReal) * x1 ix0) := by
  rw [val_main_v32_apply, val_main_v31_apply, val_main_cst_4_apply, val_main_v30_apply, val_main_v29_apply, val_main_cst_3_apply,
    val_main_v28_apply, val_main_v27_apply, src_id]
  show Ideal.div (Ideal.ofBits .f32 0x3F800000#32) (Ideal.ofBits .f32 0x3F800000#32 + Ideal.exp (-(_))) = Ideal.logistic _
  rw [Ideal.ofBits_one_f32]
  rfl

/-! ## The four transposed masks: entry `(k, r)` is the mask at hidden row `r`, input column `k` -/

theorem msk1 (r : Fin 2048) (k : Fin 1024) (j : S1024x2048.Idx) (h0 : (j 0).val = k.val) (h1 : (j 1).val = r.val) :
    val_main_v7 (F := Ideal) x2 j = mH 1#32 x2 (ix2 r k) := by
  rw [val_main_v7_apply, val_main_v6_apply, val_main_v5_apply, val_main_v0_apply, val_main_v4_apply, val_main_c_apply]
  refine congrArg (fun v : BitVec 32 => (((IntOp.cmpi .eq v 1#32).toNat : ℝ) : EReal)) (congrArg x2 (funext fun a => Fin.ext ?_))
  match a with
  | ⟨0, _⟩ => exact h1
  | ⟨1, _⟩ => exact h0
theorem msk2 (r : Fin 2048) (k : Fin 1024) (j : S1024x2048.Idx) (h0 : (j 0).val = k.val) (h1 : (j 1).val = r.val) :
    val_main_v14 (F := Ideal) x2 j = mH 2#32 x2 (ix2 r k) := by
  rw [val_main_v14_apply, val_main_v12_apply, val_main_v11_apply, val_main_v0_apply, val_main_v10_apply, val_main_c_0_apply]
  refine congrArg (fun v : BitVec 32 => (((IntOp.cmpi .eq v 2#32).toNat : ℝ) : EReal)) (congrArg x2 (funext fun a => Fin.ext ?_))
  match a with
  | ⟨0, _⟩ => exact h1
  | ⟨1, _⟩ => exact h0
theorem msk3 (r : Fin 2048) (k : Fin 1024) (j : S1024x2048.Idx) (h0 : (j 0).val = k.val) (h1 : (j 1).val = r.val) :
    val_main_v21 (F := Ideal) x2 j = mH 3#32 x2 (ix2 r k) := by
  rw [val_main_v21_apply, val_main_v19_apply, val_main_v18_apply, val_main_v0_apply, val_main_v17_apply, val_main_c_1_apply]
  refine congrArg (fun v : BitVec 32 => (((IntOp.cmpi .eq v 3#32).toNat : ℝ) : EReal)) (congrArg x2 (funext fun a => Fin.ext ?_))
  match a with
  | ⟨0, _⟩ => exact h1
  | ⟨1, _⟩ => exact h0
theorem msk4 (r : Fin 2048) (k : Fin 1024) (j : S1024x2048.Idx) (h0 : (j 0).val = k.val) (h1 : (j 1).val = r.val) :
    val_main_v33 (F := Ideal) x2 j = mH 4#32 x2 (ix2 r k) := by
  rw [val_main_v33_apply, val_main_v26_apply, val_main_v25_apply, val_main_v0_apply, val_main_v24_apply, val_main_c_2_apply]
  refine congrArg (fun v : BitVec 32 => (((IntOp.cmpi .eq v 4#32).toNat : ℝ) : EReal)) (congrArg x2 (funext fun a => Fin.ext ?_))
  match a with
  | ⟨0, _⟩ => exact h1
  | ⟨1, _⟩ => exact h0

/-- The left operand of each product is read at `(b, k)`. -/
theorem lrow (b : Fin 8192) (r : Fin 2048) (k : Fin 1024) (j : S8192x1024.Idx) (h0 : (j 0).val = b.val) (h1 : (j 1).val = k.val) :
    j = ix2 b k := funext fun a => Fin.ext (by match a with | ⟨0, _⟩ => exact h0 | ⟨1, _⟩ => exact h1)

/-! ## The four masked sums -/

theorem sum1 (b : Fin 8192) (r : Fin 2048) : val_main_v8 (F := Ideal) x0 x1 x2 (ix2 b r)
    = term id (fun k : Fin 1024 => (x0 (ix2 b k) : EReal) * x1 ix0) (fun k => mH 1#32 x2 (ix2 r k)) := by
  rw [val_main_v8_apply]
  refine Finset.sum_congr rfl fun k _ => ?_
  rw [src_id, msk1 x2 r k _ rfl rfl, lrow b r k (lidx_main_v8 (ix2 b r) k) rfl rfl]
  rfl
theorem sum2 (b : Fin 8192) (r : Fin 2048) : val_main_v15 (F := Ideal) x0 x1 x2 (ix2 b r)
    = term relu (fun k : Fin 1024 => (x0 (ix2 b k) : EReal) * x1 ix0) (fun k => mH 2#32 x2 (ix2 r k)) := by
  rw [val_main_v15_apply]
  refine Finset.sum_congr rfl fun k _ => ?_
  rw [src_relu, msk2 x2 r k _ rfl rfl, lrow b r k (lidx_main_v15 (ix2 b r) k) rfl rfl]
theorem sum3 (b : Fin 8192) (r : Fin 2048) : val_main_v22 (F := Ideal) x0 x1 x2 (ix2 b r)
    = term Ideal.tanh (fun k : Fin 1024 => (x0 (ix2 b k) : EReal) * x1 ix0) (fun k => mH 3#32 x2 (ix2 r k)) := by
  rw [val_main_v22_apply]
  refine Finset.sum_congr rfl fun k _ => ?_
  rw [src_tanh, msk3 x2 r k _ rfl rfl, lrow b r k (lidx_main_v22 (ix2 b r) k) rfl rfl]
theorem sum4 (b : Fin 8192) (r : Fin 2048) : val_main_v34 (F := Ideal) x0 x1 x2 (ix2 b r)
    = term Ideal.logistic (fun k : Fin 1024 => (x0 (ix2 b k) : EReal) * x1 ix0) (fun k => mH 4#32 x2 (ix2 r k)) := by
  rw [val_main_v34_apply]
  refine Finset.sum_congr rfl fun k _ => ?_
  rw [src_logistic, msk4 x2 r k _ rfl rfl, lrow b r k (lidx_main_v34 (ix2 b r) k) rfl rfl]

/-- The reference's hidden stage is the hidden nodes of the specification. -/
theorem hidden_eq : val_main_v35 (F := Ideal) x0 x1 x2 = hiddenOf x0 x1 x2 := by
  funext i
  obtain ⟨b, r, rfl⟩ : ∃ (b : Fin 8192) (r : Fin 2048), i = ix2 b r := ⟨i 0, i 1, eq_ix2 i⟩
  rw [val_main_v35_apply, val_main_v23_apply, val_main_v16_apply, val_main_v9_apply, val_main_v1_apply, val_main_cst_apply,
    sum1, sum2, sum3, sum4]
  show (((Ideal.ofBits .f32 0x00000000#32 + _) + _) + _) + _ = _
  rw [Ideal.ofBits_zero_f32]
  rfl

end Cert.ReferenceIdeal.Hand

end
-- ==== Proof.LibColumns.lean ====
/-
  Column-wise layout operations on matrices, read at an index written by coordinates.

  A block of columns cut from a matrix; a single entry `[1, 1]` repeated down a column `[a, 1]`; two matrices with the
  same rows set side by side, read in the left piece and in the right piece; and a matrix widened by padding columns on
  the right, read inside the original columns. Each holds for any element type and any extents.
-/
import Idealize.ShloMosaic.Lib.Pipeline.Value
import Idealize.ShloMosaic.Lib.ValueIdx
import Idealize.ShloMosaic.Lib.KernelVsHost

namespace Cert.LibColumns

open Idealize.ShloMosaic Idealize.ShloMosaic.ValueIdx

variable {α : Type}

/-- Columns `o … o + m − 1` cut from an `[a, n]` matrix: entry `(p, j)` of the cut is entry `(p, o + j)` of the matrix. -/
theorem slice_cols_apply {a n m : ℕ} (o : ℕ) (X : (⟨2, ![a, n]⟩ : Shape).Idx → α)
    (h : (⟨2, ![a, n]⟩ : Shape).Slices ![0, o] ⟨2, ![a, m]⟩) (p : Fin a) (j : Fin m) (hj : o + j.val < n) :
    extractStridedSlice ⟨2, ![a, m]⟩ ![0, o] X h (ix2 p j) = X (ix2 p ⟨o + j.val, hj⟩) :=
  extractStridedSlice_apply _ _ _ _ _ (fun ax => by
    match ax with
    | ⟨0, _⟩ => show p.val = 0 + p.val; omega
    | ⟨1, _⟩ => rfl)

/-- A single entry `[1, 1]` repeated down a column `[a, 1]`: every entry of the column is that entry. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => show (0 : ℕ) = if (1 : ℕ) = 1 then 0 else p.val; rw [if_pos rfl]
  | ⟨1, _⟩ => show (0 : ℕ) = if (1 : ℕ) = 1 then 0 else u.val; rw [if_pos rfl]

/-- Two matrices with the same rows set side by side, `[r, n1]` then `[r, n2]`: a column `j < n1` of the result is
    column `j` of the left piece. -/
theorem concat_cols_left {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n1) (hj : j.val < n) :
    concatenate ⟨2, ![r, n]⟩ 1 [⟨⟨2, ![r, n1]⟩, A⟩, ⟨⟨2, ![r, n2]⟩, B⟩] h (ix2 k ⟨j.val, hj⟩) = A (ix2 k j) :=
  concatenate_pair_apply_left 1 A B h _ rfl (ix2 k j) (fun b => by
    match b with
    | ⟨0, _⟩ => rfl
    | ⟨1, _⟩ => rfl)

/-- The same, in the right piece: column `n1 + j` of the result is column `j` of the right piece. -/
theorem concat_cols_right {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n2)
    (hj : n1 + j.val < n) :
    concatenate ⟨2, ![r, n]⟩ 1 [⟨⟨2, ![r, n1]⟩, A⟩, ⟨⟨2, ![r, n2]⟩, B⟩] h (ix2 k ⟨n1 + j.val, hj⟩) = B (ix2 k j) :=
  concatenate_pair_apply_right 1 A B h _ rfl rfl (ix2 k j)
    (fun b hb => by
      match b with
      | ⟨0, _⟩ => rfl
      | ⟨1, _⟩ => exact absurd rfl hb)
    (by show j.val + n1 = n1 + j.val; omega)

/-- A matrix `[r, n]` widened to `[r, N]` by padding columns on the right only: inside the first `n` columns the
    result is the matrix, whatever the padding value. -/
theorem pad_cols_apply {r n N : ℕ} (hi : ℕ) (X : (⟨2, ![r, n]⟩ : Shape).Idx → α) {u : Shape} (v : u.Idx → α)
    (hp : (⟨2, ![r, n]⟩ : Shape).Pads ![0, 0] ![0, hi] ![0, 0] ⟨2, ![r, N]⟩) (hu : 0 < u.numel)
    (k : Fin r) (j : Fin n) (hj : j.val < N) :
    pad ⟨2, ![r, N]⟩ ![0, 0] ![0, hi] ![0, 0] X v hp hu (ix2 k ⟨j.val, hj⟩) = X (ix2 k j) :=
  pad_apply_of_inside _ _ _ X v hp hu _ (ix2 k j) (fun ax => by
    match ax with
    | ⟨0, _⟩ => show k.val = 0 + k.val * (0 + 1); omega
    | ⟨1, _⟩ => show j.val = 0 + j.val * (0 + 1); omega)

end Cert.LibColumns
-- ==== Proof.RefOut.lean ====
/-
  The reference's result is the network of the specification.

  The reference lays the inputs and the hidden nodes side by side (3072 columns), multiplies by the weight, applies
  each activation, and multiplies with the transposed one-hot mask of its code over the output rows of the code
  matrix, adding the four products onto zero: a node over 3072 sources.  A sum over 1024 + 2048 sources is the sum
  over the first 1024 plus the sum over the last 2048; the first 1024 columns of the side-by-side array are the
  inputs, the last 2048 the hidden nodes; so the node is the two-group node of the specification.
-/
import proofs.«118198_j89618787598436_1_alg».proof.Proof.Gen.ReferenceIdeal.Read
import proofs.«118198_j89618787598436_1_alg».proof.Proof.RefHidden
import proofs.«118198_j89618787598436_1_alg».proof.Proof.LibColumns
import Idealize.ShloMosaic.Lib.IdealHost
import Idealize.ShloMosaic.PureOps.Ideal.Laws

set_option maxRecDepth 16384

noncomputable section

namespace Cert.ReferenceIdeal.Hand

open Cert.ReferenceIdeal Cert.ReferenceIdeal.Gen Cert.ReferenceIdeal.Read Cert.TypedNet
open Idealize.ShloMosaic Idealize.ShloMosaic.ValueIdx

variable (x0 : (⟨S8192x1024, .f32⟩ : BufTy).Contents (Elt Ideal)) (x1 : (⟨S_, .f32⟩ : BufTy).Contents (Elt Ideal))
  (x2 : (⟨S2304x3072, .i32⟩ : BufTy).Contents (Elt Ideal))

/-- Output node `o`'s row of the code matrix. -/
abbrev orow (o : Fin 256) : Fin 2304 := ⟨2048 + o.val, by omega⟩

/-! ## The side-by-side sources -/

/-- The first 1024 columns are the inputs. -/
theorem cat_left (b : Fin 8192) (s : Fin 1024) (k : Fin 3072) (hk : k.val = s.val) :
    val_main_v36 (F := Ideal) x0 x1 x2 (ix2 b k) = x0 (ix2 b s) := by
  have hs : s.val < 3072 := by have := s.isLt; omega
  obtain rfl : k = ⟨s.val, hs⟩ := Fin.ext hk
  unfold val_main_v36
  exact Cert.LibColumns.concat_cols_left x0 (val_main_v35 (F := Ideal) x0 x1 x2) concatenates_S8192x1024_S8192x2048_S8192x3072_d1 b s _

/-- The last 2048 columns are the hidden nodes. -/
theorem cat_right (b : Fin 8192) (s : Fin 2048) (k : Fin 3072) (hk : k.val = 1024 + s.val) :
    val_main_v36 (F := Ideal) x0 x1 x2 (ix2 b k) = hiddenOf x0 x1 x2 (ix2 b s) := by
  have hs : 1024 + s.val < 3072 := by have := s.isLt; omega
  obtain rfl : k = ⟨1024 + s.val, hs⟩ := Fin.ext hk
  rw [← hidden_eq]
  unfold val_main_v36
  exact Cert.LibColumns.concat_cols_right x0 (val_main_v35 (F := Ideal) x0 x1 x2) concatenates_S8192x1024_S8192x2048_S8192x3072_d1 b s _

/-! ## The four activated sources -/

theorem osrc_id (j : S8192x3072.Idx) : val_main_v40 (F := Ideal) x0 x1 x2 j = (val_main_v36 (F := Ideal) x0 x1 x2 j : EReal) * x1 ix0 := by
  rw [val_main_v40_apply, val_main_v39_apply]
  exact mul_comm _ _

theorem osrc_relu (j : S8192x3072.Idx) : val_main_v50 (F := Ideal) x0 x1 x2 j = relu ((val_main_v36 (F := Ideal) x0 x1 x2 j : EReal) * x1 ix0) := by
  rw [val_main_v50_apply, osrc_id, val_main_call1_v0_apply, val_main_call1_cst_apply]
  show max _ (Ideal.ofBits .f32 0x00000000#32) = max _ 0
  rw [Ideal.ofBits_zero_f32]

theorem osrc_tanh (j : S8192x3072.Idx) : val_main_v57 (F := Ideal) x0 x1 x2 j = Ideal.tanh ((val_main_v36 (F := Ideal) x0 x1 x2 j : EReal) * x1 ix0) := by
  rw [val_main_v57_apply, osrc_id]
  rfl

theorem osrc_logistic (j : S8192x3072.Idx) : val_main_v69 (F := Ideal) x0 x1 x2 j = Ideal.logistic ((val_main_v36 (F := Ideal) x0 x1 x2 j : EReal) * x1 ix0) := by
  rw [val_main_v69_apply, val_main_v68_apply, val_main_cst_11_apply, val_main_v67_apply, val_main_v66_apply, val_main_cst_10_apply,
    val_main_v65_apply, val_main_v64_apply, osrc_id]
  show Ideal.div (Ideal.ofBits .f32 0x3F800000#32) (Ideal.ofBits .f32 0x3F800000#32 + Ideal.exp (-(_))) = Ideal.logistic _
  rw [Ideal.ofBits_one_f32]
  rfl

/-! ## The four transposed masks: entry `(k, o)` is the mask at output row `o`, column `k` -/

theorem omsk1 (o : Fin 256) (k : Fin 3072) (j : S3072x256.Idx) (h0 : (j 0).val = k.val) (h1 : (j 1).val = o.val) :
    val_main_v44 (F := Ideal) x2 j = hot 1#32 (x2 (ix2 (orow o) k)) := by
  rw [val_main_v44_apply, val_main_v43_apply, val_main_v42_apply, val_main_v37_apply, val_main_v41_apply, val_main_c_6_apply]
  refine congrArg (fun v : BitVec 32 => (((IntOp.cmpi .eq v 1#32).toNat : ℝ) : EReal)) (congrArg x2 (funext fun a => Fin.ext ?_))
  match a with
  | ⟨0, _⟩ => show 2048 + (j 1).val = 2048 + o.val; rw [h1]
  | ⟨1, _⟩ => exact h0
theorem omsk2 (o : Fin 256) (k : Fin 3072) (j : S3072x256.Idx) (h0 : (j 0).val = k.val) (h1 : (j 1).val = o.val) :
    val_main_v51 (F := Ideal) x2 j = hot 2#32 (x2 (ix2 (orow o) k)) := by
  rw [val_main_v51_apply, val_main_v49_apply, val_main_v48_apply, val_main_v37_apply, val_main_v47_apply, val_main_c_7_apply]
  refine congrArg (fun v : BitVec 32 => (((IntOp.cmpi .eq v 2#32).toNat : ℝ) : EReal)) (congrArg x2 (funext fun a => Fin.ext ?_))
  match a with
  | ⟨0, _⟩ => show 2048 + (j 1).val = 2048 + o.val; rw [h1]
  | ⟨1, _⟩ => exact h0
theorem omsk3 (o : Fin 256) (k : Fin 3072) (j : S3072x256.Idx) (h0 : (j 0).val = k.val) (h1 : (j 1).val = o.val) :
    val_main_v58 (F := Ideal) x2 j = hot 3#32 (x2 (ix2 (orow o) k)) := by
  rw [val_main_v58_apply, val_main_v56_apply, val_main_v55_apply, val_main_v37_apply, val_main_v54_apply, val_main_c_8_apply]
  refine congrArg (fun v : BitVec 32 => (((IntOp.cmpi .eq v 3#32).toNat : ℝ) : EReal)) (congrArg x2 (funext fun a => Fin.ext ?_))
  match a with
  | ⟨0, _⟩ => show 2048 + (j 1).val = 2048 + o.val; rw [h1]
  | ⟨1, _⟩ => exact h0
theorem omsk4 (o : Fin 256) (k : Fin 3072) (j : S3072x256.Idx) (h0 : (j 0).val = k.val) (h1 : (j 1).val = o.val) :
    val_main_v70 (F := Ideal) x2 j = hot 4#32 (x2 (ix2 (orow o) k)) := by
  rw [val_main_v70_apply, val_main_v63_apply, val_main_v62_apply, val_main_v37_apply, val_main_v61_apply, val_main_c_9_apply]
  refine congrArg (fun v : BitVec 32 => (((IntOp.cmpi .eq v 4#32).toNat : ℝ) : EReal)) (congrArg x2 (funext fun a => Fin.ext ?_))
  match a with
  | ⟨0, _⟩ => show 2048 + (j 1).val = 2048 + o.val; rw [h1]
  | ⟨1, _⟩ => exact h0

/-- The left operand of each product is read at `(b, k)`. -/
theorem lrow2 (b : Fin 8192) (k : Fin 3072) (j : S8192x3072.Idx) (h0 : (j 0).val = b.val) (h1 : (j 1).val = k.val) :
    j = ix2 b k := funext fun a => Fin.ext (by match a with | ⟨0, _⟩ => exact h0 | ⟨1, _⟩ => exact h1)

/-! ## The four masked sums over the 3072 sources -/

theorem osum1 (b : Fin 8192) (o : Fin 256) : val_main_v45 (F := Ideal) x0 x1 x2 (ix2 b o)
    = term id (fun k : Fin 3072 => (val_main_v36 (F := Ideal) x0 x1 x2 (ix2 b k) : EReal) * x1 ix0) (fun k => hot 1#32 (x2 (ix2 (orow o) k))) := by
  rw [val_main_v45_apply]
  refine Finset.sum_congr rfl fun k _ => ?_
  rw [osrc_id, omsk1 x2 o k _ rfl rfl, lrow2 b k (lidx_main_v45 (ix2 b o) k) rfl rfl]
  rfl
theorem osum2 (b : Fin 8192) (o : Fin 256) : val_main_v52 (F := Ideal) x0 x1 x2 (ix2 b o)
    = term relu (fun k : Fin 3072 => (val_main_v36 (F := Ideal) x0 x1 x2 (ix2 b k) : EReal) * x1 ix0) (fun k => hot 2#32 (x2 (ix2 (orow o) k))) := by
  rw [val_main_v52_apply]
  refine Finset.sum_congr rfl fun k _ => ?_
  rw [osrc_relu, omsk2 x2 o k _ rfl rfl, lrow2 b k (lidx_main_v52 (ix2 b o) k) rfl rfl]
theorem osum3 (b : Fin 8192) (o : Fin 256) : val_main_v59 (F := Ideal) x0 x1 x2 (ix2 b o)
    = term Ideal.tanh (fun k : Fin 3072 => (val_main_v36 (F := Ideal) x0 x1 x2 (ix2 b k) : EReal) * x1 ix0) (fun k => hot 3#32 (x2 (ix2 (orow o) k))) := by
  rw [val_main_v59_apply]
  refine Finset.sum_congr rfl fun k _ => ?_
  rw [osrc_tanh, omsk3 x2 o k _ rfl rfl, lrow2 b k (lidx_main_v59 (ix2 b o) k) rfl rfl]
theorem osum4 (b : Fin 8192) (o : Fin 256) : val_main_v71 (F := Ideal) x0 x1 x2 (ix2 b o)
    = term Ideal.logistic (fun k : Fin 3072 => (val_main_v36 (F := Ideal) x0 x1 x2 (ix2 b k) : EReal) * x1 ix0) (fun k => hot 4#32 (x2 (ix2 (orow o) k))) := by
  rw [val_main_v71_apply]
  refine Finset.sum_congr rfl fun k _ => ?_
  rw [osrc_logistic, omsk4 x2 o k _ rfl rfl, lrow2 b k (lidx_main_v71 (ix2 b o) k) rfl rfl]

/-- The reference's result at `(b, o)`: a node over the 3072 side-by-side sources. -/
theorem out_node (b : Fin 8192) (o : Fin 256) : val_main_v72 (F := Ideal) x0 x1 x2 (ix2 b o)
    = node (fun k : Fin 3072 => (val_main_v36 (F := Ideal) x0 x1 x2 (ix2 b k) : EReal) * x1 ix0)
        (fun k => hot 1#32 (x2 (ix2 (orow o) k))) (fun k => hot 2#32 (x2 (ix2 (orow o) k)))
        (fun k => hot 3#32 (x2 (ix2 (orow o) k))) (fun k => hot 4#32 (x2 (ix2 (orow o) k))) := by
  rw [val_main_v72_apply, val_main_v60_apply, val_main_v53_apply, val_main_v46_apply, val_main_v38_apply, val_main_cst_5_apply,
    osum1, osum2, osum3, osum4]
  show (((Ideal.ofBits .f32 0x00000000#32 + _) + _) + _) + _ = _
  rw [Ideal.ofBits_zero_f32]
  rfl

/-- The reference's result is the network. -/
theorem result_eq : val_main_v72 (F := Ideal) x0 x1 x2 = net x0 x1 x2 := by
  funext i
  obtain ⟨b, o, rfl⟩ : ∃ (b : Fin 8192) (o : Fin 256), i = ix2 b o := ⟨i 0, i 1, eq_ix2 i⟩
  rw [out_node]
  refine (node_add 1024 2048 _ _ _ _ _).trans ?_
  have hA : ∀ s : Fin 1024, val_main_v36 (F := Ideal) x0 x1 x2 (ix2 b (Fin.castAdd 2048 s)) = x0 (ix2 b s) :=
    fun s => cat_left x0 x1 x2 b s _ rfl
  have hB : ∀ s : Fin 2048, val_main_v36 (F := Ideal) x0 x1 x2 (ix2 b (Fin.natAdd 1024 s)) = hiddenOf x0 x1 x2 (ix2 b s) :=
    fun s => cat_right x0 x1 x2 b s _ rfl
  simp only [hA, hB]
  rfl

end Cert.ReferenceIdeal.Hand

end
-- ==== Proof.lean ====
/-
  A two-layer typed message-passing network: a tiled two-launch kernel against its plain array reference, equal on
  the extended reals.

  A node's value is the sum over its sources of an activation of `w · source`, the activation picked per edge by a
  code in a matrix (1 identity, 2 relu, 3 tanh, 4 logistic; 0 no edge).  Both programs realise it with four one-hot
  masks and four matrix products per group of sources.  The kernel computes the 2048 hidden nodes in one launch,
  256 batch rows per grid point, and the 256 output nodes in a second launch that reads the inputs and the hidden
  array and accumulates eight products; the reference lays inputs and hidden nodes side by side and accumulates
  four products over 3072 columns.  On the extended reals rounding to a narrower float is the identity, a product
  into a zero accumulator is a plain sum, `1 / (1 + e^(-z))` is the logistic function, and the two groupings of the
  masked sums agree by commutativity and associativity of addition: no finiteness of the inputs is used.  The three
  frames are the generated frame proofs and the reference's generated run; the idealization rewrote nothing.
-/
import proofs.«118198_j89618787598436_1_alg».proof.Defs
import proofs.«118198_j89618787598436_1_alg».proof.Proof.Gen.Kernel
import proofs.«118198_j89618787598436_1_alg».proof.Proof.Gen.Kernel.Skeleton
import proofs.«118198_j89618787598436_1_alg».proof.Proof.Gen.Kernel.Launch
import proofs.«118198_j89618787598436_1_alg».proof.Proof.Gen.Kernel.Points
import proofs.«118198_j89618787598436_1_alg».proof.Proof.Gen.Kernel.Frame
import proofs.«118198_j89618787598436_1_alg».proof.Proof.Gen.KernelIdeal
import proofs.«118198_j89618787598436_1_alg».proof.Proof.Gen.KernelIdeal.Skeleton
import proofs.«118198_j89618787598436_1_alg».proof.Proof.Gen.KernelIdeal.Launch
import proofs.«118198_j89618787598436_1_alg».proof.Proof.Gen.KernelIdeal.Points
import proofs.«118198_j89618787598436_1_alg».proof.Proof.Gen.KernelIdeal.Frame
import proofs.«118198_j89618787598436_1_alg».proof.Proof.Gen.ReferenceIdeal
import proofs.«118198_j89618787598436_1_alg».proof.Proof.Gen.ReferenceIdeal.Run
import proofs.«118198_j89618787598436_1_alg».proof.Proof.Gen.ReferenceIdeal.Read
import proofs.«118198_j89618787598436_1_alg».proof.Proof.Gen.Pre_finite_inputs
import proofs.«118198_j89618787598436_1_alg».proof.Proof.KernelValue
import proofs.«118198_j89618787598436_1_alg».proof.Proof.RefOut
import Idealize.ShloMosaic.Adequacy
import Idealize.ShloMosaic.Init

noncomputable section

namespace Cert.Proof

open Idealize.ShloMosaic Idealize.SL.Sem Cert.TypedNet

theorem frame_kernel : Cert.frame_Kernel :=
  fun m ρ _ => Cert.Kernel.Gen.frame m ρ

theorem frame_kernel_ideal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- Both programs end with the network of the arguments in their result array. -/
theorem algebraic : Cert.algebraic_KernelIdeal_ReferenceIdeal := by
  intro m ρ m' ρ' _ hagree
  refine ⟨fun c => net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_net m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, Cert.ReferenceIdeal.Hand.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
